-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x4096 : Shape := ⟨3, ![1, 4096, 4096]⟩
abbrev S16384x4096 : Shape := ⟨2, ![16384, 4096]⟩
abbrev S16384x256 : Shape := ⟨2, ![16384, 256]⟩
abbrev S16384 : Shape := ⟨1, ![16384]⟩
abbrev S_ : Shape := ⟨0, ![]⟩

class Facts : Prop where
  bcast_S_S1x4096x4096 : S_.BroadcastsInDim S1x4096x4096 (![] : Fin 0 → Fin S1x4096x4096.rank)
  reducesTo_S1x4096x4096_S_d0_1_2 : S1x4096x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384x256 : S_.BroadcastsInDim S16384x256 (![] : Fin 0 → Fin S16384x256.rank)
  reducesTo_S16384x256_S_d0_1 : S16384x256.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  main_v18

def fn {F : FTy → Type} [FloatOps F] (main_arg0 : FVec F S1x4096x4096 .f32) (main_arg1 : FVec F S16384x4096 .f32) (main_arg2 : FVec F S16384x256 .f32) (main_arg3 : FVec F S16384 .f32) : IVec S_ 1 :=
  let main_v0 : FVec F S1x4096x4096 .f32 := Host.absf main_arg0
  let main_cst : FVec F S_ .f32 := constant S_ .f32 0x7F800000#32
  let main_v1 : FVec F S1x4096x4096 .f32 := broadcastInDim S1x4096x4096 ![] bcast_S_S1x4096x4096 main_cst
  let main_v2 : IVec S1x4096x4096 1 := cmpf .olt main_v0 main_v1
  let main_c : IVec S_ 1 := constantI S_ 1 1#1
  let main_v3 : IVec S_ 1 := (fun x v => Host.reduce IntOp.andi x v reducesTo_S1x4096x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384x256 .f32 := Host.absf main_arg2
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_v13 main_v16
-- ==== Kernel.lean ====
abbrev S1x4096x4096 : Shape := ⟨3, ![1, 4096, 4096]⟩
abbrev S16384x4096 : Shape := ⟨2, ![16384, 4096]⟩
abbrev S16384x256 : Shape := ⟨2, ![16384, 256]⟩
abbrev S16384 : Shape := ⟨1, ![16384]⟩
abbrev S7 : Shape := ⟨1, ![7]⟩
abbrev S8 : Shape := ⟨1, ![8]⟩
abbrev S4096x4096 : Shape := ⟨2, ![4096, 4096]⟩
abbrev S4096x256x16 : Shape := ⟨3, ![4096, 256, 16]⟩
abbrev S_ : Shape := ⟨0, ![]⟩
abbrev S4096x256 : Shape := ⟨2, ![4096, 256]⟩
abbrev S4096x256x1 : Shape := ⟨3, ![4096, 256, 1]⟩
abbrev S4096x256x16x1 : Shape := ⟨4, ![4096, 256, 16, 1]⟩
abbrev S1x1x1x7 : Shape := ⟨4, ![1, 1, 1, 7]⟩
abbrev S4096x256x16x7 : Shape := ⟨4, ![4096, 256, 16, 7]⟩
abbrev S16384x256x16 : Shape := ⟨3, ![16384, 256, 16]⟩
abbrev S16384x256x1 : Shape := ⟨3, ![16384, 256, 1]⟩
abbrev S1x16384 : Shape := ⟨2, ![1, 16384]⟩
abbrev S4096x16384 : Shape := ⟨2, ![4096, 16384]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩
abbrev S1x4096x16384 : Shape := ⟨3, ![1, 4096, 16384]⟩

abbrev nBuf : Space → Nat
  | .hbm => 92
  | .vmem => 9
  | .smem => 0
  | _ => 0

abbrev bufTy : (tb : Table) → Fin (tcTables nBuf tb) → BufTy
  | .hbm, ⟨0, _⟩ => ⟨S1x4096x4096, .f32⟩
  | .hbm, ⟨1, _⟩ => ⟨S16384x4096, .f32⟩
  | .hbm, ⟨2, _⟩ => ⟨S16384x256, .f32⟩
  | .hbm, ⟨3, _⟩ => ⟨S16384, .f32⟩
  | .hbm, ⟨4, _⟩ => ⟨S7, .f32⟩
  | .hbm, ⟨5, _⟩ => ⟨S8, .f32⟩
  | .hbm, ⟨6, _⟩ => ⟨S4096x4096, .f32⟩
  | .hbm, ⟨7, _⟩ => ⟨S4096x256x16, .f32⟩
  | .hbm, ⟨8, _⟩ => ⟨S4096x256x16, .f32⟩
  | .hbm, ⟨9, _⟩ => ⟨S_, .f32⟩
  | .hbm, ⟨10, _⟩ => ⟨S4096x256, .f32⟩
  | .hbm, ⟨11, _⟩ => ⟨S_, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096x256, .f32⟩
  | .hbm, ⟨16, _⟩ => ⟨S4096x256, .f32⟩
  | .hbm, ⟨17, _⟩ => ⟨S_, .f32⟩
  | .hbm, ⟨18, _⟩ => ⟨S4096x256, .f32⟩
  | .hbm, ⟨19, _⟩ => ⟨S4096x256, .f32⟩
  | .hbm, ⟨20, _⟩ => ⟨S4096x256, .f32⟩
  | .hbm, ⟨21, _⟩ => ⟨S_, .f32⟩
  | .hbm, ⟨22, _⟩ => ⟨S_, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4096x256, .f32⟩
  | .hbm, ⟨30, _⟩ => ⟨S4096x256, .f32⟩
  | .hbm, ⟨31, _⟩ => ⟨S_, .f32⟩
  | .hbm, ⟨32, _⟩ => ⟨S4096x256, .f32⟩
  | .hbm, ⟨33, _⟩ => ⟨S4096x256, .f32⟩
  | .hbm, ⟨34, _⟩ => ⟨S_, .f32⟩
  | .hbm, ⟨35, _⟩ => ⟨S4096x256, .f32⟩
  | .hbm, ⟨36, _⟩ => ⟨S4096x256, .f32⟩
  | .hbm, ⟨37, _⟩ => ⟨S_, .f32⟩
  | .hbm, ⟨38, _⟩ => ⟨S4096x256, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096x256, .f32⟩
  | .hbm, ⟨48, _⟩ => ⟨S4096x256, .f32⟩
  | .hbm, ⟨49, _⟩ => ⟨S_, .f32⟩
  | .hbm, ⟨50, _⟩ => ⟨S4096x256, .f32⟩
  | .hbm, ⟨51, _⟩ => ⟨S4096x256, .f32⟩
  | .hbm, ⟨52, _⟩ => ⟨S_, .f32⟩
  | .hbm, ⟨53, _⟩ => ⟨S4096x256, .f32⟩
  | .hbm, ⟨54, _⟩ => ⟨S4096x256, .f32⟩
  | .hbm, ⟨55, _⟩ => ⟨S4096x256x1, .f32⟩
  | .hbm, ⟨56, _⟩ => ⟨S4096x256x16, .f32⟩
  | .hbm, ⟨57, _⟩ => ⟨S4096x256x16, .f32⟩
  | .hbm, ⟨58, _⟩ => ⟨S4096x256x16, .f32⟩
  | .hbm, ⟨59, _⟩ => ⟨S4096x256x16x1, .f32⟩
  | .hbm, ⟨60, _⟩ => ⟨S1x1x1x7, .f32⟩
  | .hbm, ⟨61, _⟩ => ⟨S4096x256x16x7, .f32⟩
  | .hbm, ⟨62, _⟩ => ⟨S4096x256x16x7, .f32⟩
  | .hbm, ⟨63, _⟩ => ⟨S4096x256x16x7, .i1⟩
  | .hbm, ⟨64, _⟩ => ⟨S4096x256x16x7, .i32⟩
  | .hbm, ⟨65, _⟩ => ⟨S_, .i32⟩
  | .hbm, ⟨66, _⟩ => ⟨S4096x256x16, .i32⟩
  | .hbm, ⟨67, _⟩ => ⟨S4096x256x16, .f32⟩
  | .hbm, ⟨68, _⟩ => ⟨S_, .i32⟩
  | .hbm, ⟨69, _⟩ => ⟨S4096x256x16, .i32⟩
  | .hbm, ⟨70, _⟩ => ⟨S4096x256x16, .i1⟩
  | .hbm, ⟨71, _⟩ => ⟨S_, .i32⟩
  | .hbm, ⟨72, _⟩ => ⟨S4096x256x16, .i32⟩
  | .hbm, ⟨73, _⟩ => ⟨S4096x256x16, .i32⟩
  | .hbm, ⟨74, _⟩ => ⟨S4096x256x16, .i32⟩
  | .hbm, ⟨75, _⟩ => ⟨S4096x256x16x1, .i32⟩
  | .hbm, ⟨76, _⟩ => ⟨S4096x256x16, .f32⟩
  | .hbm, ⟨77, _⟩ => ⟨S4096x256x16, .f32⟩
  | .hbm, ⟨78, _⟩ => ⟨S4096x256x1, .f32⟩
  | .hbm, ⟨79, _⟩ => ⟨S4096x256x16, .f32⟩
  | .hbm, ⟨80, _⟩ => ⟨S4096x256x16, .f32⟩
  | .hbm, ⟨81, _⟩ => ⟨S4096x4096, .f32⟩
  | .hbm, ⟨82, _⟩ => ⟨S4096x4096, .bf16⟩
  | .hbm, ⟨83, _⟩ => ⟨S16384x256x16, .f32⟩
  | .hbm, ⟨84, _⟩ => ⟨S16384x256x1, .f32⟩
  | .hbm, ⟨85, _⟩ => ⟨S16384x256x16, .f32⟩
  | .hbm, ⟨86, _⟩ => ⟨S16384x256x16, .f32⟩
  | .hbm, ⟨87, _⟩ => ⟨S16384x4096, .f32⟩
  | .hbm, ⟨88, _⟩ => ⟨S16384x4096, .bf16⟩
  | .hbm, ⟨89, _⟩ => ⟨S1x16384, .f32⟩
  | .hbm, ⟨90, _⟩ => ⟨S4096x16384, .f32⟩
  | .hbm, ⟨91, _⟩ => ⟨S1x4096x16384, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_cst_7 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v15 : Ref sig .tc := ⟨.hbm, 33, rfl⟩
abbrev main_cst_8 : Ref sig .tc := ⟨.hbm, 34, rfl⟩
abbrev main_v16 : Ref sig .tc := ⟨.hbm, 35, rfl⟩
abbrev main_v17 : Ref sig .tc := ⟨.hbm, 36, rfl⟩
abbrev main_cst_9 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_10 : Ref sig .tc := ⟨.hbm, 44, rfl⟩
abbrev main_cst_11 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v24 : Ref sig .tc := ⟨.hbm, 51, rfl⟩
abbrev main_cst_12 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c : Ref sig .tc := ⟨.hbm, 65, rfl⟩
abbrev main_v37 : Ref sig .tc := ⟨.hbm, 66, rfl⟩
abbrev main_v38 : Ref sig .tc := ⟨.hbm, 67, rfl⟩
abbrev main_c_13 : Ref sig .tc := ⟨.hbm, 68, rfl⟩
abbrev main_v39 : Ref sig .tc := ⟨.hbm, 69, rfl⟩
abbrev main_v40 : Ref sig .tc := ⟨.hbm, 70, rfl⟩
abbrev main_c_14 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S1x4096x4096_S4096x4096 : S1x4096x4096.ShapeCasts S4096x4096
  shapeCasts_S4096x4096_S4096x256x16 : S4096x4096.ShapeCasts S4096x256x16
  reducesTo_S4096x256x16_S4096x256_d2 : S4096x256x16.ReducesTo [2] S4096x256
  h_S_ : 0 < S_.numel
  bcast_S_S4096x256 : S_.BroadcastsInDim S4096x256 (![] : Fin 0 → Fin S4096x256.rank)
  bcast_S4096x256_S4096x256x1_0_1 : S4096x256.BroadcastsInDim S4096x256x1 (![0, 1] : Fin 2 → Fin S4096x256x1.rank)
  bcast_S4096x256x1_S4096x256x16_0_1_2 : S4096x256x1.BroadcastsInDim S4096x256x16 (![0, 1, 2] : Fin 3 → Fin S4096x256x16.rank)
  bcast_S4096x256x16_S4096x256x16x1_0_1_2 : S4096x256x16.BroadcastsInDim S4096x256x16x1 (![0, 1, 2] : Fin 3 → Fin S4096x256x16x1.rank)
  bcast_S7_S1x1x1x7_3 : S7.BroadcastsInDim S1x1x1x7 (![3] : Fin 1 → Fin S1x1x1x7.rank)
  bcast_S4096x256x16x1_S4096x256x16x7_0_1_2_3 : S4096x256x16x1.BroadcastsInDim S4096x256x16x7 (![0, 1, 2, 3] : Fin 4 → Fin S4096x256x16x7.rank)
  bcast_S1x1x1x7_S4096x256x16x7_0_1_2_3 : S1x1x1x7.BroadcastsInDim S4096x256x16x7 (![0, 1, 2, 3] : Fin 4 → Fin S4096x256x16x7.rank)
  natLt_1_32 : 1 < 32
  reducesTo_S4096x256x16x7_S4096x256x16_d3 : S4096x256x16x7.ReducesTo [3] S4096x256x16
  bcast_S_S4096x256x16 : S_.BroadcastsInDim S4096x256x16 (![] : Fin 0 → Fin S4096x256x16.rank)
  shapeCasts_S4096x256x16_S4096x4096 : S4096x256x16.ShapeCasts S4096x4096
  bitsLt_bf16_f32 : FTy.bits .bf16 < FTy.bits .f32
  shapeCasts_S16384x4096_S16384x256x16 : S16384x4096.ShapeCasts S16384x256x16
  bcast_S16384x256_S16384x256x1_0_1 : S16384x256.BroadcastsInDim S16384x256x1 (![0, 1] : Fin 2 → Fin S16384x256x1.rank)
  bcast_S16384x256x1_S16384x256x16_0_1_2 : S16384x256x1.BroadcastsInDim S16384x256x16 (![0, 1, 2] : Fin 3 → Fin S16384x256x16.rank)
  shapeCasts_S16384x256x16_S16384x4096 : S16384x256x16.ShapeCasts S16384x4096
  shapeCasts_S16384_S1x16384 : S16384.ShapeCasts S1x16384
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S4096x16384_S1x4096x16384 : S4096x16384.ShapeCasts S1x4096x16384
  gather_S8_S4096x256x16x1_S4096x256x16_n_0_n_n_0_3_1_wf : GatherDims.WF S8 S4096x256x16x1 S4096x256x16 [] [0] [] [0] [] 3 ![1]
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .bf16 = 32 ∨ (Rect.block (s := S4096x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x4096.size a
  hwx0_1 : ∀ i : grid0.Coords, EltTy.bits .bf16 = 32 ∨ (Rect.block (s := S16384x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x16384.size a
  hwx0_3 : ∀ i : grid0.Coords, EltTy.bits .f32 = 32 ∨ (Rect.block (s := S4096x16384) S2048x1024.size (cc0_transform_3 i) (hinb0_3 i)).WholeWords (EltTy.packing .f32)

variable [Facts₀]

def gather_S8_S4096x256x16x1_S4096x256x16_n_0_n_n_0_3_1 : GatherDims S8 S4096x256x16x1 S4096x256x16 where
  offsetDims := []
  collapsedSliceDims := [0]
  operandBatchingDims := []
  startIndicesBatchingDims := []
  startIndexMap := [0]
  indexVectorDim := 3
  sliceSizes := ![1]
  wf := gather_S8_S4096x256x16x1_S4096x256x16_n_0_n_n_0_3_1_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v51) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v57) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v59) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1x4096x4096 : Shape := ⟨3, ![1, 4096, 4096]⟩
abbrev S16384x4096 : Shape := ⟨2, ![16384, 4096]⟩
abbrev S16384x256 : Shape := ⟨2, ![16384, 256]⟩
abbrev S16384 : Shape := ⟨1, ![16384]⟩
abbrev S7 : Shape := ⟨1, ![7]⟩
abbrev S8 : Shape := ⟨1, ![8]⟩
abbrev S4096x4096 : Shape := ⟨2, ![4096, 4096]⟩
abbrev S4096x256x16 : Shape := ⟨3, ![4096, 256, 16]⟩
abbrev S_ : Shape := ⟨0, ![]⟩
abbrev S4096x256 : Shape := ⟨2, ![4096, 256]⟩
abbrev S4096x256x1 : Shape := ⟨3, ![4096, 256, 1]⟩
abbrev S4096x256x16x1 : Shape := ⟨4, ![4096, 256, 16, 1]⟩
abbrev S1x1x1x7 : Shape := ⟨4, ![1, 1, 1, 7]⟩
abbrev S4096x256x16x7 : Shape := ⟨4, ![4096, 256, 16, 7]⟩
abbrev S16384x256x16 : Shape := ⟨3, ![16384, 256, 16]⟩
abbrev S16384x256x1 : Shape := ⟨3, ![16384, 256, 1]⟩
abbrev S4096x16384 : Shape := ⟨2, ![4096, 16384]⟩
abbrev S1x16384 : Shape := ⟨2, ![1, 16384]⟩
abbrev S1x4096x16384 : Shape := ⟨3, ![1, 4096, 16384]⟩

abbrev nBuf : Space → Nat
  | .hbm => 96
  | .vmem => 0
  | .smem => 0
  | _ => 0

abbrev bufTy : (tb : Table) → Fin (tcTables nBuf tb) → BufTy
  | .hbm, ⟨0, _⟩ => ⟨S1x4096x4096, .f32⟩
  | .hbm, ⟨1, _⟩ => ⟨S16384x4096, .f32⟩
  | .hbm, ⟨2, _⟩ => ⟨S16384x256, .f32⟩
  | .hbm, ⟨3, _⟩ => ⟨S16384, .f32⟩
  | .hbm, ⟨4, _⟩ => ⟨S7, .f32⟩
  | .hbm, ⟨5, _⟩ => ⟨S8, .f32⟩
  | .hbm, ⟨6, _⟩ => ⟨S4096x4096, .f32⟩
  | .hbm, ⟨7, _⟩ => ⟨S4096x256x16, .f32⟩
  | .hbm, ⟨8, _⟩ => ⟨S4096x256x16, .f32⟩
  | .hbm, ⟨9, _⟩ => ⟨S_, .f32⟩
  | .hbm, ⟨10, _⟩ => ⟨S4096x256, .f32⟩
  | .hbm, ⟨11, _⟩ => ⟨S_, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096x256, .f32⟩
  | .hbm, ⟨16, _⟩ => ⟨S4096x256, .f32⟩
  | .hbm, ⟨17, _⟩ => ⟨S_, .f32⟩
  | .hbm, ⟨18, _⟩ => ⟨S4096x256, .f32⟩
  | .hbm, ⟨19, _⟩ => ⟨S4096x256, .f32⟩
  | .hbm, ⟨20, _⟩ => ⟨S4096x256, .f32⟩
  | .hbm, ⟨21, _⟩ => ⟨S_, .f32⟩
  | .hbm, ⟨22, _⟩ => ⟨S_, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4096x256, .f32⟩
  | .hbm, ⟨30, _⟩ => ⟨S4096x256, .f32⟩
  | .hbm, ⟨31, _⟩ => ⟨S_, .f32⟩
  | .hbm, ⟨32, _⟩ => ⟨S4096x256, .f32⟩
  | .hbm, ⟨33, _⟩ => ⟨S4096x256, .f32⟩
  | .hbm, ⟨34, _⟩ => ⟨S_, .f32⟩
  | .hbm, ⟨35, _⟩ => ⟨S4096x256, .f32⟩
  | .hbm, ⟨36, _⟩ => ⟨S4096x256, .f32⟩
  | .hbm, ⟨37, _⟩ => ⟨S_, .f32⟩
  | .hbm, ⟨38, _⟩ => ⟨S4096x256, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096x256, .f32⟩
  | .hbm, ⟨48, _⟩ => ⟨S4096x256, .f32⟩
  | .hbm, ⟨49, _⟩ => ⟨S_, .f32⟩
  | .hbm, ⟨50, _⟩ => ⟨S4096x256, .f32⟩
  | .hbm, ⟨51, _⟩ => ⟨S4096x256, .f32⟩
  | .hbm, ⟨52, _⟩ => ⟨S_, .f32⟩
  | .hbm, ⟨53, _⟩ => ⟨S4096x256, .f32⟩
  | .hbm, ⟨54, _⟩ => ⟨S4096x256, .f32⟩
  | .hbm, ⟨55, _⟩ => ⟨S4096x256x1, .f32⟩
  | .hbm, ⟨56, _⟩ => ⟨S4096x256x16, .f32⟩
  | .hbm, ⟨57, _⟩ => ⟨S4096x256x16, .f32⟩
  | .hbm, ⟨58, _⟩ => ⟨S4096x256x16, .f32⟩
  | .hbm, ⟨59, _⟩ => ⟨S4096x256x16x1, .f32⟩
  | .hbm, ⟨60, _⟩ => ⟨S1x1x1x7, .f32⟩
  | .hbm, ⟨61, _⟩ => ⟨S4096x256x16x7, .f32⟩
  | .hbm, ⟨62, _⟩ => ⟨S4096x256x16x7, .f32⟩
  | .hbm, ⟨63, _⟩ => ⟨S4096x256x16x7, .i1⟩
  | .hbm, ⟨64, _⟩ => ⟨S4096x256x16x7, .i32⟩
  | .hbm, ⟨65, _⟩ => ⟨S_, .i32⟩
  | .hbm, ⟨66, _⟩ => ⟨S4096x256x16, .i32⟩
  | .hbm, ⟨67, _⟩ => ⟨S4096x256x16, .f32⟩
  | .hbm, ⟨68, _⟩ => ⟨S_, .i32⟩
  | .hbm, ⟨69, _⟩ => ⟨S4096x256x16, .i32⟩
  | .hbm, ⟨70, _⟩ => ⟨S4096x256x16, .i1⟩
  | .hbm, ⟨71, _⟩ => ⟨S_, .i32⟩
  | .hbm, ⟨72, _⟩ => ⟨S4096x256x16, .i32⟩
  | .hbm, ⟨73, _⟩ => ⟨S4096x256x16, .i32⟩
  | .hbm, ⟨74, _⟩ => ⟨S4096x256x16, .i32⟩
  | .hbm, ⟨75, _⟩ => ⟨S4096x256x16x1, .i32⟩
  | .hbm, ⟨76, _⟩ => ⟨S4096x256x16, .f32⟩
  | .hbm, ⟨77, _⟩ => ⟨S4096x256x16, .f32⟩
  | .hbm, ⟨78, _⟩ => ⟨S4096x256x1, .f32⟩
  | .hbm, ⟨79, _⟩ => ⟨S4096x256x16, .f32⟩
  | .hbm, ⟨80, _⟩ => ⟨S4096x256x16, .f32⟩
  | .hbm, ⟨81, _⟩ => ⟨S4096x4096, .f32⟩
  | .hbm, ⟨82, _⟩ => ⟨S16384x256x16, .f32⟩
  | .hbm, ⟨83, _⟩ => ⟨S16384x256x1, .f32⟩
  | .hbm, ⟨84, _⟩ => ⟨S16384x256x16, .f32⟩
  | .hbm, ⟨85, _⟩ => ⟨S16384x256x16, .f32⟩
  | .hbm, ⟨86, _⟩ => ⟨S16384x4096, .f32⟩
  | .hbm, ⟨87, _⟩ => ⟨S4096x16384, .f32⟩
  | .hbm, ⟨88, _⟩ => ⟨S4096x16384, .f32⟩
  | .hbm, ⟨89, _⟩ => ⟨S_, .f32⟩
  | .hbm, ⟨90, _⟩ => ⟨S4096x16384, .f32⟩
  | .hbm, ⟨91, _⟩ => ⟨S4096x16384, .f32⟩
  | .hbm, ⟨92, _⟩ => ⟨S1x16384, .f32⟩
  | .hbm, ⟨93, _⟩ => ⟨S4096x16384, .f32⟩
  | .hbm, ⟨94, _⟩ => ⟨S4096x16384, .f32⟩
  | .hbm, ⟨95, _⟩ => ⟨S1x4096x16384, .f32⟩
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_cst_7 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v15 : Ref sig .tc := ⟨.hbm, 33, rfl⟩
abbrev main_cst_8 : Ref sig .tc := ⟨.hbm, 34, rfl⟩
abbrev main_v16 : Ref sig .tc := ⟨.hbm, 35, rfl⟩
abbrev main_v17 : Ref sig .tc := ⟨.hbm, 36, rfl⟩
abbrev main_cst_9 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_10 : Ref sig .tc := ⟨.hbm, 44, rfl⟩
abbrev main_cst_11 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v24 : Ref sig .tc := ⟨.hbm, 51, rfl⟩
abbrev main_cst_12 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c : Ref sig .tc := ⟨.hbm, 65, rfl⟩
abbrev main_v37 : Ref sig .tc := ⟨.hbm, 66, rfl⟩
abbrev main_v38 : Ref sig .tc := ⟨.hbm, 67, rfl⟩
abbrev main_c_13 : Ref sig .tc := ⟨.hbm, 68, rfl⟩
abbrev main_v39 : Ref sig .tc := ⟨.hbm, 69, rfl⟩
abbrev main_v40 : Ref sig .tc := ⟨.hbm, 70, rfl⟩
abbrev main_c_14 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_15 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩

abbrev nD : Nat := 1
abbrev τ : Topo := Topo.v7x

variable {F : FTy → Type} [FloatOps F]

class Facts₀ : Prop where
  shapeCasts_S1x4096x4096_S4096x4096 : S1x4096x4096.ShapeCasts S4096x4096
  shapeCasts_S4096x4096_S4096x256x16 : S4096x4096.ShapeCasts S4096x256x16
  reducesTo_S4096x256x16_S4096x256_d2 : S4096x256x16.ReducesTo [2] S4096x256
  h_S_ : 0 < S_.numel
  bcast_S_S4096x256 : S_.BroadcastsInDim S4096x256 (![] : Fin 0 → Fin S4096x256.rank)
  bcast_S4096x256_S4096x256x1_0_1 : S4096x256.BroadcastsInDim S4096x256x1 (![0, 1] : Fin 2 → Fin S4096x256x1.rank)
  bcast_S4096x256x1_S4096x256x16_0_1_2 : S4096x256x1.BroadcastsInDim S4096x256x16 (![0, 1, 2] : Fin 3 → Fin S4096x256x16.rank)
  bcast_S4096x256x16_S4096x256x16x1_0_1_2 : S4096x256x16.BroadcastsInDim S4096x256x16x1 (![0, 1, 2] : Fin 3 → Fin S4096x256x16x1.rank)
  bcast_S7_S1x1x1x7_3 : S7.BroadcastsInDim S1x1x1x7 (![3] : Fin 1 → Fin S1x1x1x7.rank)
  bcast_S4096x256x16x1_S4096x256x16x7_0_1_2_3 : S4096x256x16x1.BroadcastsInDim S4096x256x16x7 (![0, 1, 2, 3] : Fin 4 → Fin S4096x256x16x7.rank)
  bcast_S1x1x1x7_S4096x256x16x7_0_1_2_3 : S1x1x1x7.BroadcastsInDim S4096x256x16x7 (![0, 1, 2, 3] : Fin 4 → Fin S4096x256x16x7.rank)
  natLt_1_32 : 1 < 32
  reducesTo_S4096x256x16x7_S4096x256x16_d3 : S4096x256x16x7.ReducesTo [3] S4096x256x16
  bcast_S_S4096x256x16 : S_.BroadcastsInDim S4096x256x16 (![] : Fin 0 → Fin S4096x256x16.rank)
  shapeCasts_S4096x256x16_S4096x4096 : S4096x256x16.ShapeCasts S4096x4096
  shapeCasts_S16384x4096_S16384x256x16 : S16384x4096.ShapeCasts S16384x256x16
  bcast_S16384x256_S16384x256x1_0_1 : S16384x256.BroadcastsInDim S16384x256x1 (![0, 1] : Fin 2 → Fin S16384x256x1.rank)
  bcast_S16384x256x1_S16384x256x16_0_1_2 : S16384x256x1.BroadcastsInDim S16384x256x16 (![0, 1, 2] : Fin 3 → Fin S16384x256x16.rank)
  shapeCasts_S16384x256x16_S16384x4096 : S16384x256x16.ShapeCasts S16384x4096
  transposes_S16384x4096_S4096x16384_1_0 : S16384x4096.Transposes [1, 0] S4096x16384
  bcast_S_S4096x16384 : S_.BroadcastsInDim S4096x16384 (![] : Fin 0 → Fin S4096x16384.rank)
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  shapeCasts_S4096x16384_S1x4096x16384 : S4096x16384.ShapeCasts S1x4096x16384
  gather_S8_S4096x256x16x1_S4096x256x16_n_0_n_n_0_3_1_wf : GatherDims.WF S8 S4096x256x16x1 S4096x256x16 [] [0] [] [0] [] 3 ![1]
  dot_S4096x4096_S4096x16384_S4096x16384_1_0_0_1_n_n_wf : DotDims.WF S4096x4096 S4096x16384 S4096x16384 [1] [0] [0] [1] [] []

variable [Facts₀]

def gather_S8_S4096x256x16x1_S4096x256x16_n_0_n_n_0_3_1 : GatherDims S8 S4096x256x16x1 S4096x256x16 where
  offsetDims := []
  collapsedSliceDims := [0]
  operandBatchingDims := []
  startIndicesBatchingDims := []
  startIndexMap := [0]
  indexVectorDim := 3
  sliceSizes := ![1]
  wf := gather_S8_S4096x256x16x1_S4096x256x16_n_0_n_n_0_3_1_wf
def dot_S4096x4096_S4096x16384_S4096x16384_1_0_0_1_n_n : DotDims S4096x4096 S4096x16384 S4096x16384 where
  lhsContracting := [1]
  rhsContracting := [0]
  lhsNonContracting := [0]
  rhsNonContracting := [1]
  lhsBatch := []
  rhsBatch := []
  wf := dot_S4096x4096_S4096x16384_S4096x16384_1_0_0_1_n_n_wf

class Facts : Prop extends Facts₀ where

variable [Facts]
-- ==== Proof.Quant.lean ====
/-
  Blockwise four-bit quantisation of a matrix, followed by de-quantisation, as ONE function of the matrix.

  A 4096 × 4096 matrix x is cut into blocks of 16 consecutive entries of a row (4096 × 256 blocks). Each block gets
  a scale s: its largest absolute value divided by 6, kept above 1e-12, rounded to three mantissa bits
  (step 2^(clip(floor(log2 ·), -6, 8) - 3), round to even, clipped to [0, 448]) and kept above 2^-9. An entry of the
  block is divided by the scale, its magnitude is placed among the seven midpoints tM (the number of midpoints
  strictly below it is an index 0 … 7), the index is looked up in the table tL of the eight magnitudes, the sign is
  put back, and the result is multiplied by the scale again: deq x. The weight matrix is stored already
  quantised, one scale per block of 16: wdeq w s multiplies every block of w by its scale.

  The two tables are parameters: both programs carry them as literal tables of their own.
  Every definition is one operation of the host programs applied to the values before it, so that either program's
  composed term unfolds to these.
-/
import Idealize.ShloMosaic.PureOps
import Idealize.ShloMosaic.Lib.StableHlo

noncomputable section

namespace Cert.Nvfp4

open Idealize.ShloMosaic

abbrev S1x4096x4096 : Shape := ⟨3, ![1, 4096, 4096]⟩
abbrev S16384x4096 : Shape := ⟨2, ![16384, 4096]⟩
abbrev S16384x256 : Shape := ⟨2, ![16384, 256]⟩
abbrev S16384 : Shape := ⟨1, ![16384]⟩
abbrev S7 : Shape := ⟨1, ![7]⟩
abbrev S8 : Shape := ⟨1, ![8]⟩
abbrev S4096x4096 : Shape := ⟨2, ![4096, 4096]⟩
abbrev S4096x256x16 : Shape := ⟨3, ![4096, 256, 16]⟩
abbrev S_ : Shape := ⟨0, ![]⟩
abbrev S4096x256 : Shape := ⟨2, ![4096, 256]⟩
abbrev S4096x256x1 : Shape := ⟨3, ![4096, 256, 1]⟩
abbrev S4096x256x16x1 : Shape := ⟨4, ![4096, 256, 16, 1]⟩
abbrev S1x1x1x7 : Shape := ⟨4, ![1, 1, 1, 7]⟩
abbrev S4096x256x16x7 : Shape := ⟨4, ![4096, 256, 16, 7]⟩
abbrev S16384x256x16 : Shape := ⟨3, ![16384, 256, 16]⟩
abbrev S16384x256x1 : Shape := ⟨3, ![16384, 256, 1]⟩
abbrev S1x16384 : Shape := ⟨2, ![1, 16384]⟩
abbrev S4096x16384 : Shape := ⟨2, ![4096, 16384]⟩
abbrev S1x4096x16384 : Shape := ⟨3, ![1, 4096, 16384]⟩

theorem shapeCasts_S1x4096x4096_S4096x4096 : S1x4096x4096.ShapeCasts S4096x4096 := by decide
theorem shapeCasts_S4096x4096_S4096x256x16 : S4096x4096.ShapeCasts S4096x256x16 := by decide
theorem reducesTo_S4096x256x16_S4096x256_d2 : S4096x256x16.ReducesTo [2] S4096x256 := by decide
theorem h_S_ : 0 < S_.numel := by decide
theorem bcast_S_S4096x256 : S_.BroadcastsInDim S4096x256 (![] : Fin 0 → Fin S4096x256.rank) := by decide
theorem bcast_S4096x256_S4096x256x1_0_1 : S4096x256.BroadcastsInDim S4096x256x1 (![0, 1] : Fin 2 → Fin S4096x256x1.rank) := by decide
theorem bcast_S4096x256x1_S4096x256x16_0_1_2 : S4096x256x1.BroadcastsInDim S4096x256x16 (![0, 1, 2] : Fin 3 → Fin S4096x256x16.rank) := by decide
theorem bcast_S4096x256x16_S4096x256x16x1_0_1_2 : S4096x256x16.BroadcastsInDim S4096x256x16x1 (![0, 1, 2] : Fin 3 → Fin S4096x256x16x1.rank) := by decide
theorem bcast_S7_S1x1x1x7_3 : S7.BroadcastsInDim S1x1x1x7 (![3] : Fin 1 → Fin S1x1x1x7.rank) := by decide
theorem bcast_S4096x256x16x1_S4096x256x16x7_0_1_2_3 : S4096x256x16x1.BroadcastsInDim S4096x256x16x7 (![0, 1, 2, 3] : Fin 4 → Fin S4096x256x16x7.rank) := by decide
theorem bcast_S1x1x1x7_S4096x256x16x7_0_1_2_3 : S1x1x1x7.BroadcastsInDim S4096x256x16x7 (![0, 1, 2, 3] : Fin 4 → Fin S4096x256x16x7.rank) := by decide
theorem natLt_1_32 : 1 < 32 := by decide
theorem reducesTo_S4096x256x16x7_S4096x256x16_d3 : S4096x256x16x7.ReducesTo [3] S4096x256x16 := by decide
theorem bcast_S_S4096x256x16 : S_.BroadcastsInDim S4096x256x16 (![] : Fin 0 → Fin S4096x256x16.rank) := by decide
theorem shapeCasts_S4096x256x16_S4096x4096 : S4096x256x16.ShapeCasts S4096x4096 := by decide
theorem shapeCasts_S16384x4096_S16384x256x16 : S16384x4096.ShapeCasts S16384x256x16 := by decide
theorem bcast_S16384x256_S16384x256x1_0_1 : S16384x256.BroadcastsInDim S16384x256x1 (![0, 1] : Fin 2 → Fin S16384x256x1.rank) := by decide
theorem bcast_S16384x256x1_S16384x256x16_0_1_2 : S16384x256x1.BroadcastsInDim S16384x256x16 (![0, 1, 2] : Fin 3 → Fin S16384x256x16.rank) := by decide
theorem shapeCasts_S16384x256x16_S16384x4096 : S16384x256x16.ShapeCasts S16384x4096 := by decide
theorem shapeCasts_S16384_S1x16384 : S16384.ShapeCasts S1x16384 := by decide
theorem shapeCasts_S4096x16384_S1x4096x16384 : S4096x16384.ShapeCasts S1x4096x16384 := by decide
theorem gather_wf : GatherDims.WF S8 S4096x256x16x1 S4096x256x16 [] [0] [] [0] [] 3 ![1] := by decide

/-- The table look-up: entry (r, b, e) of the result is the table at the index stored at (r, b, e, 0). -/
def lookup : GatherDims S8 S4096x256x16x1 S4096x256x16 where
  offsetDims := []
  collapsedSliceDims := [0]
  operandBatchingDims := []
  startIndicesBatchingDims := []
  startIndexMap := [0]
  indexVectorDim := 3
  sliceSizes := ![1]
  wf := gather_wf

variable {F : FTy → Type} [FloatOps F]

/-- A scalar literal repeated over the 4096 × 256 blocks. -/
def splat (w : BitVec 32) : FVec F S4096x256 .f32 := broadcastInDim S4096x256 ![] bcast_S_S4096x256 (constant S_ .f32 w)

/-- clip(z, lo, hi) = min(hi, max(lo, z)), the bounds scalar literals. -/
def clip (z : FVec F S4096x256 .f32) (lo hi : BitVec 32) : FVec F S4096x256 .f32 :=
  minimumf (broadcastInDim S4096x256 ![] bcast_S_S4096x256 (id (constant S_ .f32 hi)))
    (maximumf (broadcastInDim S4096x256 ![] bcast_S_S4096x256 (id (constant S_ .f32 lo))) z)

/-- The largest absolute value of each block, divided by 6 and kept above 1e-12. -/
def amax6 (xb : FVec F S4096x256x16 .f32) : FVec F S4096x256 .f32 :=
  maximumf (Host.divf (Host.reduce FloatOps.maximumf (Host.absf xb) (constant S_ .f32 0xFF800000#32) reducesTo_S4096x256x16_S4096x256_d2 h_S_)
    (splat 0x40C00000#32)) (splat 0x2B8CBCCC#32)

/-- The rounding step of a scale a: 2^(clip(floor(log2 (max a 1e-30)), -6, 8) - 3), as exp(log 2 · …). -/
def step (a : FVec F S4096x256 .f32) : FVec F S4096x256 .f32 :=
  Host.exp (mulf (splat 0x3F317218#32)
    (subf (clip (Host.floor (Host.divf (Host.log (maximumf a (splat 0x0DA24260#32)))
      (broadcastInDim S4096x256 ![] bcast_S_S4096x256 (Host.log (constant S_ .f32 0x40000000#32))))) 0xC0C00000#32 0x41000000#32)
      (splat 0x40400000#32)))

/-- The scale of each block: a rounded to a multiple of its step, clipped to [0, 448], kept above 2^-9. -/
def scale (xb : FVec F S4096x256x16 .f32) : FVec F S4096x256 .f32 :=
  maximumf (clip (mulf (Host.roundeven (Host.divf (amax6 xb) (step (amax6 xb)))) (step (amax6 xb))) 0x00000000#32 0x43E00000#32)
    (splat 0x3B000000#32)

/-- A per-block value repeated over the 16 entries of its block. -/
def perEntry (s : FVec F S4096x256 .f32) : FVec F S4096x256x16 .f32 :=
  broadcastInDim S4096x256x16 ![0, 1, 2] bcast_S4096x256x1_S4096x256x16_0_1_2
    (broadcastInDim S4096x256x1 ![0, 1] bcast_S4096x256_S4096x256x1_0_1 s)

/-- The entries divided by their block's scale. -/
def scaled (xb : FVec F S4096x256x16 .f32) : FVec F S4096x256x16 .f32 := Host.divf xb (perEntry (scale xb))

/-- How many of the seven midpoints lie strictly below an entry's magnitude. -/
def level (tM : FVec F S7 .f32) (y : FVec F S4096x256x16 .f32) : IVec S4096x256x16 32 :=
  Host.reduce IntOp.addi
    (extui 32 (cmpf .ogt
      (broadcastInDim S4096x256x16x7 ![0, 1, 2, 3] bcast_S4096x256x16x1_S4096x256x16x7_0_1_2_3
        (broadcastInDim S4096x256x16x1 ![0, 1, 2] bcast_S4096x256x16_S4096x256x16x1_0_1_2 (Host.absf y)))
      (broadcastInDim S4096x256x16x7 ![0, 1, 2, 3] bcast_S1x1x1x7_S4096x256x16x7_0_1_2_3
        (broadcastInDim S1x1x1x7 ![3] bcast_S7_S1x1x1x7_3 tM))) natLt_1_32)
    (constantI S_ 32 0#32) reducesTo_S4096x256x16x7_S4096x256x16_d3 h_S_

/-- The index wrapped as a look-up wraps a negative one (it never is). -/
def wrapped (n : IVec S4096x256x16 32) : IVec S4096x256x16 32 :=
  select (cmpi .slt n (broadcastInDim S4096x256x16 ![] bcast_S_S4096x256x16 (constantI S_ 32 0#32)))
    (addi n (broadcastInDim S4096x256x16 ![] bcast_S_S4096x256x16 (constantI S_ 32 8#32))) n

/-- The quantised entries: sign times the table's magnitude at the entry's level. -/
def quantised (tM : FVec F S7 .f32) (tL : FVec F S8 .f32) (y : FVec F S4096x256x16 .f32) : FVec F S4096x256x16 .f32 :=
  mulf (Host.sign y)
    (Host.gather lookup tL
      (broadcastInDim S4096x256x16x1 ![0, 1, 2] bcast_S4096x256x16_S4096x256x16x1_0_1_2 (wrapped (level tM y))))

/-- Quantise every block against its scale and multiply the scale back. -/
def deqBlocks (tM : FVec F S7 .f32) (tL : FVec F S8 .f32) (xb : FVec F S4096x256x16 .f32) : FVec F S4096x256x16 .f32 :=
  mulf (quantised tM tL (scaled xb)) (perEntry (scale xb))

/-- The activations as blocks of 16. -/
def blocks (x : FVec F S1x4096x4096 .f32) : FVec F S4096x256x16 .f32 :=
  shapeCast S4096x256x16 (shapeCast S4096x4096 x shapeCasts_S1x4096x4096_S4096x4096) shapeCasts_S4096x4096_S4096x256x16

/-- The de-quantised activations, a 4096 × 4096 matrix. -/
def deq (tM : FVec F S7 .f32) (tL : FVec F S8 .f32) (x : FVec F S1x4096x4096 .f32) : FVec F S4096x4096 .f32 :=
  shapeCast S4096x4096 (deqBlocks tM tL (blocks x)) shapeCasts_S4096x256x16_S4096x4096

/-- The de-quantised weights, a 16384 × 4096 matrix: every block of 16 times its scale. -/
def wdeq (w : FVec F S16384x4096 .f32) (s : FVec F S16384x256 .f32) : FVec F S16384x4096 .f32 :=
  shapeCast S16384x4096
    (mulf (shapeCast S16384x256x16 w shapeCasts_S16384x4096_S16384x256x16)
      (broadcastInDim S16384x256x16 ![0, 1, 2] bcast_S16384x256x1_S16384x256x16_0_1_2
        (broadcastInDim S16384x256x1 ![0, 1] bcast_S16384x256_S16384x256x1_0_1 s)))
    shapeCasts_S16384x256x16_S16384x4096

/-- The bias as one row. -/
def biasRow (b : FVec F S16384 .f32) : FVec F S1x16384 .f32 := shapeCast S1x16384 b shapeCasts_S16384_S1x16384

end Cert.Nvfp4

end
-- ==== Proof.KHost.lean ====
/-
  What the idealized kernel's host lines hand to its matrix-product region: the three arrays the region stages are
  the de-quantised activations, the de-quantised weights (both then changed to the narrower float format, which
  on the extended reals changes nothing) and the bias as one row, each as ONE function of the argument arrays.
-/
import proofs.«141052_j29618094473423_2_alg».proof.Proof.Quant
import proofs.«141052_j29618094473423_2_alg».proof.Proof.Gen.KernelIdeal.Frame
import Idealize.ShloMosaic.Lib.StableHlo.Run

noncomputable section

namespace Cert.KernelIdeal.HostVal

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The seven midpoints and the eight magnitudes, as this program's literal tables. -/
def tM : FVec F S7 .f32 := fun i => FloatOps.ofBits .f32 (lit0 (S7.rowMajor i))
def tL : FVec F S8 .f32 := fun i => FloatOps.ofBits .f32 (lit1 (S8.rowMajor i))

set_option maxRecDepth 65536 in
set_option maxHeartbeats 4000000 in
/-- The region's first array: the de-quantised activations. -/
theorem V_acts (c : Dev nD) : (V m c main_v51 : S4096x4096.Idx → F .bf16)
    = truncf .bf16 (Cert.Nvfp4.deq tM tL (m ((c : Thread nD τ).loc main_arg0))) bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

set_option maxRecDepth 65536 in
set_option maxHeartbeats 4000000 in
/-- The region's second array: the de-quantised weights. -/
theorem V_wts (c : Dev nD) : (V m c main_v57 : S16384x4096.Idx → F .bf16)
    = truncf .bf16 (Cert.Nvfp4.wdeq (m ((c : Thread nD τ).loc main_arg1)) (m ((c : Thread nD τ).loc main_arg2))) bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

set_option maxRecDepth 65536 in
set_option maxHeartbeats 4000000 in
/-- The region's third array: the bias as one row. -/
theorem V_bias (c : Dev nD) : (V m c main_v58 : S1x16384.Idx → F .f32)
    = Cert.Nvfp4.biasRow (m ((c : Thread nD τ).loc main_arg3)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

end Cert.KernelIdeal.HostVal

end
-- ==== Proof.KCases.lean ====
/-
  What one run of the matrix-product body leaves behind, case by case. The body keeps a running sum in a scratch
  tile: at the first block of the contraction axis it stores zeros there and adds the block's product to them
  (case A), at a middle block it adds the block's product to what the block before left (case B), and at the last
  block it does the same and then writes the sum plus the bias row into the output tile (case C). Each case's
  stores cover the whole tile, so what they leave is the last store's value, and a load of the tile after a store
  reads that store's value.
-/
import proofs.«141052_j29618094473423_2_alg».proof.Proof.Gen.KernelIdeal.Frame
import Idealize.ShloMosaic.Lib.Pipeline.Value
import Idealize.ShloMosaic.Lib.Tactic

noncomputable section

namespace Cert.KernelIdeal.CaseVal

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- First block: the scratch tile ends at zeros plus the block's product. -/
theorem scratch_A (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond0_0 i) (hc1 : ¬cond0_1 i)
    (x0 : Vec F S2048x512 .bf16) (x1 : Vec F S1024x512 .bf16) (x2 : Vec F S1x1024 .f32) :
    sout0_A_0 c i arg3 harg3 arg4 harg4 arg5 harg5 arg6 harg6 arg7 harg7 hc0 hc1 x0 x1 x2 = k0_pay2 k0_pay1 x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, harg5.read_unread, harg7.read_unread,
    View.ld_unit_zero (S := S2048x1024) hz, View.ld_unit_zero (S := S2048x512) hz, View.ld_unit_zero (S := S1024x512) hz,
    View.ld_unit_zero (S := S1x1024) hz]

/-- A middle block: the scratch tile ends at what it held plus the block's product. -/
theorem scratch_B (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : ¬cond0_1 i)
    (x0 : Vec F S2048x512 .bf16) (x1 : Vec F S1024x512 .bf16) (x2 : Vec F S1x1024 .f32) (xs0 : Vec F S2048x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S2048x1024) hz]
  simp only [View.readAt_eq_ld, harg3.read_unread, harg4.read_unread, harg5.read_unread, harg7.read_unread,
    View.ld_unit_zero (S := S2048x1024) hz, View.ld_unit_zero (S := S2048x512) hz, View.ld_unit_zero (S := S1024x512) hz,
    View.ld_unit_zero (S := S1x1024) hz]

/-- The last block: the scratch tile as in a middle block, -/
theorem scratch_C (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x512 .bf16) (x1 : Vec F S1024x512 .bf16) (x2 : Vec F S1x1024 .f32) (xs0 : Vec F S2048x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S2048x1024) hz]
  simp only [View.readAt_eq_ld, harg3.read_unread, harg4.read_unread, harg5.read_unread, harg7.read_unread,
    View.ld_unit_zero (S := S2048x1024) hz, View.ld_unit_zero (S := S2048x512) hz, View.ld_unit_zero (S := S1024x512) hz,
    View.ld_unit_zero (S := S1x1024) hz]

/-- and the output tile at that sum plus the bias row. -/
theorem out_C (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x512 .bf16) (x1 : Vec F S1024x512 .bf16) (x2 : Vec F S1x1024 .f32) (xs0 : Vec F S2048x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S2048x1024) hz, View.readCov_unit_zero (S := S2048x1024) _ hz]
  simp only [View.readAt_eq_ld, harg3.read_unread, harg4.read_unread, harg5.read_unread, harg7.read_unread,
    View.ld_unit_zero (S := S2048x1024) hz, View.ld_unit_zero (S := S2048x512) hz, View.ld_unit_zero (S := S1024x512) hz,
    View.ld_unit_zero (S := S1x1024) hz]

end Cert.KernelIdeal.CaseVal

end
-- ==== Proof.LibMatmulNT.lean ====
/-
  A matrix product whose two operands are both contracted on their SECOND axis (an M×K left operand against an N×K
  right operand, the weight matrix stored row per output column), accumulated into zero, read at one entry of the
  result on the extended reals: entry (p, q) is the sum over k of left (p, k) · right (q, k). Every extent is
  arbitrary; the dimension record is any record with that contraction, its few structural facts passed as
  hypotheses (each is closed by rfl or by unfolding at a printed record).
-/
import Idealize.ShloMosaic.PureOps.Ideal.Laws
import Idealize.ShloMosaic.Lib.ValueIdx

noncomputable section

namespace Cert.MatmulNT

open Idealize.ShloMosaic Idealize.ShloMosaic.ValueIdx

/-- Entry (p, q) of left · rightᵀ into a zero accumulator is ∑ₖ left (p, k) · right (q, k). -/
theorem apply {M K N : Nat} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ (j : (⟨2, ![M, N]⟩ : Shape).Idx) (q : d.contr.Idx), (d.lhsIdx j q 0).val = (j 0).val)
    (hr0 : ∀ (j : (⟨2, ![M, N]⟩ : Shape).Idx) (q : d.contr.Idx), (d.rhsIdx j q 0).val = (j 1).val)
    (prec : Option ContractPrecision) (l : FVec Ideal ⟨2, ![M, K]⟩ φ₁) (r : FVec Ideal ⟨2, ![N, K]⟩ φ₂)
    (p : Fin M) (q : Fin N) :
    FloatOps.matmul d prec l r (constant ⟨2, ![M, N]⟩ .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

end Cert.MatmulNT

end
-- ==== Proof.KPay.lean ====
/-
  The body's three stored values read at one entry of the 2048 × 1024 tile, on the extended reals: the zero tile is
  zero; the accumulation is the old entry plus the sum over the 512 columns of the two loaded blocks' products
  (both blocks are contracted on their second axis); the final value is the accumulated entry plus the bias row's
  entry of that column.
-/
import proofs.«141052_j29618094473423_2_alg».proof.Proof.Gen.KernelIdeal.Skeleton
import proofs.«141052_j29618094473423_2_alg».proof.Proof.LibMatmulNT
import Idealize.ShloMosaic.Lib.Pipeline.Value
import Idealize.ShloMosaic.Lib.ValueIdx
import Idealize.ShloMosaic.PureOps.Ideal.Laws

noncomputable section

namespace Cert.KernelIdeal.PayVal

open Idealize.ShloMosaic Idealize.ShloMosaic.ValueIdx
open Cert.KernelIdeal Cert.KernelIdeal.Gen

/-- The zero tile. -/
theorem pay1_apply (p : Fin 2048) (q : Fin 1024) : k0_pay1 (F := Ideal) (ix2 p q) = 0 := by
  unfold k0_pay1
  rw [shapeCast_self]
  exact Ideal.ofBits_zero_f32

/-- The accumulation: the old entry plus the row-by-row product of the two blocks. -/
theorem pay2_apply (acc : FVec Ideal S2048x1024 .f32) (a : FVec Ideal S2048x512 .bf16) (b : FVec Ideal S1024x512 .bf16)
    (p : Fin 2048) (q : Fin 1024) :
    k0_pay2 (F := Ideal) acc a b (ix2 p q) = acc (ix2 p q) + ∑ l : Fin 512, a (ix2 p l) * b (ix2 q l) := by
  unfold k0_pay2
  simp only [shapeCast_self]
  exact congrArg (acc (ix2 p q) + ·)
    (Cert.MatmulNT.apply dot_S2048x512_S1024x512_S2048x1024_1_1_0_0_n_n rfl rfl rfl rfl (fun _ _ => rfl) (fun _ _ => rfl) none a b p q)

/-- The final value: the accumulated entry plus the bias of its column. -/
theorem pay3_apply (acc : FVec Ideal S2048x1024 .f32) (bias : FVec Ideal S1x1024 .f32) (p : Fin 2048) (q : Fin 1024) :
    k0_pay3 (F := Ideal) acc bias (ix2 p q) = acc (ix2 p q) + bias (ix2 (0 : Fin 1) q) := by
  unfold k0_pay3
  simp only [shapeCast_self]
  exact congrArg (acc (ix2 p q) + ·)
    (broadcastTo_apply bias broadcasts_S1x1024_S2048x1024 (ix2 p q) (ix2 (0 : Fin 1) q) fun a => by
      match a with
      | ⟨0, _⟩ => rfl
      | ⟨1, _⟩ => rfl)

end Cert.KernelIdeal.PayVal

end
-- ==== Proof.MatSpec.lean ====
/-
  The matrix product with bias that both programs compute, and the law that joins their two ways of summing it.

  For a 4096 × 4096 matrix A, a 16384 × 4096 matrix B (one row per output column) and a bias row, the result at
  (r, s) is the sum over n of A (r, n) · B (s, n), plus the bias at s. The kernel sums the 4096 products in eight
  stretches of 512, each stretch added to the running sum of the stretches before it, starting from zero; that
  is the sum of the first 512 · (k + 1) products after stretch k, by induction, and the whole sum after the eighth.
  Addition of extended reals is associative and commutative, so no finiteness is needed.
-/
import Idealize.ShloMosaic.Lib.ValueIdx
import Idealize.ShloMosaic.PureOps.Ideal

noncomputable section

namespace Cert.MatSpec

open Idealize.ShloMosaic Idealize.ShloMosaic.ValueIdx

abbrev SA : Shape := ⟨2, ![4096, 4096]⟩
abbrev SB : Shape := ⟨2, ![16384, 4096]⟩
abbrev SR : Shape := ⟨2, ![1, 16384]⟩
abbrev SO : Shape := ⟨2, ![4096, 16384]⟩

variable (A : SA.Idx → EReal) (B : SB.Idx → EReal) (r : Fin 4096) (s : Fin 16384)

/-- The n-th product of the sum at (r, s); zero past the contraction axis. -/
def term (n : ℕ) : EReal := if h : n < 4096 then A (ix2 r ⟨n, h⟩) * B (ix2 s ⟨n, h⟩) else 0

theorem term_of_lt {n : ℕ} (h : n < 4096) : term A B r s n = A (ix2 r ⟨n, h⟩) * B (ix2 s ⟨n, h⟩) := dif_pos h

/-- The result array: the whole product against B's rows, plus the bias row. -/
def out (bias : SR.Idx → EReal) : SO.Idx → EReal :=
  fun i => (∑ n : Fin 4096, A (ix2 (i 0) n) * B (ix2 (i 1) n)) + bias (ix2 (0 : Fin 1) (i 1))

/-- Zero plus the first stretch is the sum of the first 512 products. -/
theorem prefix_first : (0 : EReal) + ∑ l : Fin 512, term A B r s (512 * 0 + l.val)
    = ∑ n ∈ Finset.range (512 * (0 + 1)), term A B r s n := by
  rw [zero_add, Fin.sum_univ_eq_sum_range (fun l => term A B r s (512 * 0 + l)) 512]
  exact Finset.sum_congr rfl fun l _ => by rw [Nat.mul_zero, Nat.zero_add]

/-- The running sum after stretch k plus stretch k + 1 is the running sum after stretch k + 1. -/
theorem prefix_step (k : ℕ) : (∑ n ∈ Finset.range (512 * (k + 1)), term A B r s n) + ∑ l : Fin 512, term A B r s (512 * (k + 1) + l.val)
    = ∑ n ∈ Finset.range (512 * (k + 1 + 1)), term A B r s n := by
  rw [Fin.sum_univ_eq_sum_range (fun l => term A B r s (512 * (k + 1) + l)) 512,
    show 512 * (k + 1 + 1) = 512 * (k + 1) + 512 from by ring, Finset.sum_range_add]

/-- After the eighth stretch: the whole sum. -/
theorem full : ∑ n ∈ Finset.range 4096, term A B r s n = ∑ n : Fin 4096, A (ix2 r n) * B (ix2 s n) := by
  rw [← Fin.sum_univ_eq_sum_range (term A B r s) 4096]
  exact Finset.sum_congr rfl fun n _ => term_of_lt A B r s n.isLt

end Cert.MatSpec

end
-- ==== Proof.KAccum.lean ====
/-
  The matrix-product region on the extended reals: what its output array holds after the run.

  The grid is 2 × 16 × 8: point t works on row tile t / 128 (2048 rows), column tile t / 8 mod 16 (1024 columns) and
  contraction block t mod 8 (512 columns of both operands). The scratch tile after point t holds, at (p, q), the sum of
  the first 512 · (t mod 8 + 1) products of the entry's row of the activations and row of the weights — by induction
  on the point: a first block starts from zero, a later block adds its 512 products to what the point before left
  (same tiles, one block earlier). At a last block the output tile gets that whole sum plus the bias of the column,
  and is written back; those tiles cover the output array, so it ends at the product with bias, entry by entry.
-/
import proofs.«141052_j29618094473423_2_alg».proof.Proof.KCases
import proofs.«141052_j29618094473423_2_alg».proof.Proof.KPay
import proofs.«141052_j29618094473423_2_alg».proof.Proof.MatSpec
import proofs.«141052_j29618094473423_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.MatVal

open Idealize.ShloMosaic Idealize.ShloMosaic.TcCoe Idealize.SL.Sem Idealize.ShloMosaic.ValueIdx
open Idealize.ShloMosaic.Pipeline (Dat)
open Cert.KernelIdeal Cert.KernelIdeal.Gen Cert.MatSpec

variable (m : (ℓ : Loc nD τ sig) → Buf (Elt Ideal) ℓ) (ρ : Dev nD → PrngReg)

/-- The three arrays the region stages, as it finds them. -/
def A (c : Dev nD) : SA.Idx → EReal := V m c main_v51
def B (c : Dev nD) : SB.Idx → EReal := V m c main_v57
def R (c : Dev nD) : SR.Idx → EReal := V m c main_v58

/-- The block index of each window at a point, decided over the grid. -/
theorem idx_facts : ∀ t : Fin cfg0.N,
    win0_0.index t (0 : Fin 2) = t.val / 128 ∧ win0_0.index t (1 : Fin 2) = t.val % 8
    ∧ win0_1.index t (0 : Fin 2) = t.val / 8 % 16 ∧ win0_1.index t (1 : Fin 2) = t.val % 8
    ∧ win0_2.index t (0 : Fin 2) = 0 ∧ win0_2.index t (1 : Fin 2) = t.val / 8 % 16
    ∧ win0_3.index t (0 : Fin 2) = t.val / 128 ∧ win0_3.index t (1 : Fin 2) = t.val / 8 % 16 :=
  (by decide +kernel : ∀ t : Fin grid0.N, _)

theorem lt256 (t : Fin cfg0.N) : t.val < 256 := lt_of_lt_of_eq t.isLt N_0

/-- Row p of point t's row tile, column q of its column tile, column l of its contraction block. -/
def row (t : Fin cfg0.N) (p : Fin 2048) : Fin 4096 := ⟨2048 * (t.val / 128) + p.val, by have := lt256 t; have := p.isLt; omega⟩
def col (t : Fin cfg0.N) (q : Fin 1024) : Fin 16384 := ⟨1024 * (t.val / 8 % 16) + q.val, by have := lt256 t; have := q.isLt; omega⟩
def kcol (t : Fin cfg0.N) (l : Fin 512) : Fin 4096 := ⟨512 * (t.val % 8) + l.val, by have := lt256 t; have := l.isLt; omega⟩

/-- The activations' block at a point. -/
theorem iblk0_apply (c : Dev nD) (t : Fin cfg0.N) (p : Fin 2048) (l : Fin 512) :
    (iblk m c 0 t : FVec Ideal S2048x512 .bf16) (ix2 p l) = A m c (ix2 (row t p) (kcol t l)) := by
  obtain ⟨e0, e1, -⟩ := idx_facts t
  unfold iblk A
  show V m c main_v51 (((cfg0.win 0).blk t).view.emb (ix2 p l)) = V m c main_v51 (ix2 (row t p) (kcol t l))
  refine congrArg (V m c main_v51) (funext fun a => Fin.ext ?_)
  match a with
  | ⟨0, _⟩ => show win0_0.index t (0 : Fin 2) * 2048 + 1 * p.val = 2048 * (t.val / 128) + p.val; rw [e0]; omega
  | ⟨1, _⟩ => show win0_0.index t (1 : Fin 2) * 512 + 1 * l.val = 512 * (t.val % 8) + l.val; rw [e1]; omega

/-- The weights' block at a point. -/
theorem iblk1_apply (c : Dev nD) (t : Fin cfg0.N) (q : Fin 1024) (l : Fin 512) :
    (iblk m c 1 t : FVec Ideal S1024x512 .bf16) (ix2 q l) = B m c (ix2 (col t q) (kcol t l)) := by
  obtain ⟨-, -, e2, e3, -⟩ := idx_facts t
  unfold iblk B
  show V m c main_v57 (((cfg0.win 1).blk t).view.emb (ix2 q l)) = V m c main_v57 (ix2 (col t q) (kcol t l))
  refine congrArg (V m c main_v57) (funext fun a => Fin.ext ?_)
  match a with
  | ⟨0, _⟩ => show win0_1.index t (0 : Fin 2) * 1024 + 1 * q.val = 1024 * (t.val / 8 % 16) + q.val; rw [e2]; omega
  | ⟨1, _⟩ => show win0_1.index t (1 : Fin 2) * 512 + 1 * l.val = 512 * (t.val % 8) + l.val; rw [e3]; omega

/-- The bias row's block at a point. -/
theorem iblk2_apply (c : Dev nD) (t : Fin cfg0.N) (q : Fin 1024) :
    (iblk m c 2 t : FVec Ideal S1x1024 .f32) (ix2 (0 : Fin 1) q) = R m c (ix2 (0 : Fin 1) (col t q)) := by
  obtain ⟨-, -, -, -, e4, e5, -⟩ := idx_facts t
  unfold iblk R
  show V m c main_v58 (((cfg0.win 2).blk t).view.emb (ix2 (0 : Fin 1) q)) = V m c main_v58 (ix2 (0 : Fin 1) (col t q))
  refine congrArg (V m c main_v58) (funext fun a => Fin.ext ?_)
  match a with
  | ⟨0, _⟩ => show win0_2.index t (0 : Fin 2) * 1 + 1 * 0 = 0; rw [e4]
  | ⟨1, _⟩ => show win0_2.index t (1 : Fin 2) * 1024 + 1 * q.val = 1024 * (t.val / 8 % 16) + q.val; rw [e5]; omega

/-- A point's blocks of the activations and of the weights. -/
abbrev blkA (c : Dev nD) (t : Fin cfg0.N) : FVec Ideal S2048x512 .bf16 := iblk m c 0 t
abbrev blkB (c : Dev nD) (t : Fin cfg0.N) : FVec Ideal S1024x512 .bf16 := iblk m c 1 t

/-- One product of a point's two blocks is a product of the whole sum. -/
theorem summand (c : Dev nD) (t : Fin cfg0.N) (p : Fin 2048) (q : Fin 1024) (l : Fin 512) :
    blkA m c t (ix2 p l) * blkB m c t (ix2 q l)
      = term (A m c) (B m c) (row t p) (col t q) (512 * (t.val % 8) + l.val) := by
  rw [show blkA m c t (ix2 p l) = _ from iblk0_apply m c t p l, show blkB m c t (ix2 q l) = _ from iblk1_apply m c t q l, term_of_lt (A m c) (B m c) (row t p) (col t q) (n := 512 * (t.val % 8) + l.val) (kcol t l).isLt]
  rfl

/-- The accumulation at a point: the old entry plus the block's 512 products. -/
theorem pay2_at (c : Dev nD) (t : Fin cfg0.N) (acc : FVec Ideal S2048x1024 .f32) (p : Fin 2048) (q : Fin 1024) :
    k0_pay2 (F := Ideal) acc (iblk m c 0 t) (iblk m c 1 t) (ix2 p q)
      = acc (ix2 p q) + ∑ l : Fin 512, term (A m c) (B m c) (row t p) (col t q) (512 * (t.val % 8) + l.val) := by
  rw [PayVal.pay2_apply acc (iblk m c 0 t) (iblk m c 1 t) p q]
  exact congrArg (acc (ix2 p q) + ·) (Finset.sum_congr rfl fun l _ => summand m c t p q l)

/-- THE RUNNING SUM: the scratch tile after point n holds the first 512 · (n mod 8 + 1) products. -/
theorem scratch_eq (c : Dev nD) : ∀ (n : ℕ) (h : n < cfg0.N) (p : Fin 2048) (q : Fin 1024),
    (outsAt0 m c n h).2 (ix2 p q)
      = ∑ k ∈ Finset.range (512 * (n % 8 + 1)), term (A m c) (B m c) (row ⟨n, h⟩ p) (col ⟨n, h⟩ q) k
  | 0, h, p, q => by
    rw [show outsAt0 m c 0 h = _ from outsAt0_A m c ⟨0, h⟩ rfl (by show ¬(0 % 8 = 7); decide)]
    dsimp only
    rw [CaseVal.scratch_A, pay2_at m c ⟨0, h⟩ _ p q, PayVal.pay1_apply]
    exact prefix_first (A m c) (B m c) (row ⟨0, h⟩ p) (col ⟨0, h⟩ q)
  | n + 1, h, p, q => by
    have hN : n + 1 < 256 := lt_of_lt_of_eq h N_0
    by_cases h0 : (n + 1) % 8 = 0
    · have h1 : ¬(n + 1) % 8 = 7 := by omega
      rw [show outsAt0 m c (n + 1) h = _ from outsAt0_A m c ⟨n + 1, h⟩ h0 h1]
      dsimp only
      rw [CaseVal.scratch_A, pay2_at m c ⟨n + 1, h⟩ _ p q, PayVal.pay1_apply]
      dsimp only
      rw [h0]
      exact prefix_first (A m c) (B m c) (row ⟨n + 1, h⟩ p) (col ⟨n + 1, h⟩ q)
    · have hk : (n + 1) % 8 = n % 8 + 1 := by omega
      have hrow : row ⟨n, Nat.lt_of_succ_lt h⟩ p = row ⟨n + 1, h⟩ p :=
        Fin.ext (by show 2048 * (n / 128) + p.val = 2048 * ((n + 1) / 128) + p.val; omega)
      have hcol : col ⟨n, Nat.lt_of_succ_lt h⟩ q = col ⟨n + 1, h⟩ q :=
        Fin.ext (by show 1024 * (n / 8 % 16) + q.val = 1024 * ((n + 1) / 8 % 16) + q.val; omega)
      have ih := scratch_eq c n (Nat.lt_of_succ_lt h) p q
      rw [hrow, hcol] at ih
      by_cases h1 : (n + 1) % 8 = 7
      · rw [show outsAt0 m c (n + 1) h = _ from outsAt0_C m c ⟨n + 1, h⟩ h0 h1]
        dsimp only
        rw [CaseVal.scratch_C, pay2_at m c ⟨n + 1, h⟩ _ p q]
        dsimp only
        rw [show (outsAt0 m c (n + 1 - 1) _).2 (ix2 p q) = _ from ih, hk]
        exact prefix_step (A m c) (B m c) (row ⟨n + 1, h⟩ p) (col ⟨n + 1, h⟩ q) (n % 8)
      · rw [show outsAt0 m c (n + 1) h = _ from outsAt0_B m c ⟨n + 1, h⟩ h0 h1]
        dsimp only
        rw [CaseVal.scratch_B, pay2_at m c ⟨n + 1, h⟩ _ p q]
        dsimp only
        rw [show (outsAt0 m c (n + 1 - 1) _).2 (ix2 p q) = _ from ih, hk]
        exact prefix_step (A m c) (B m c) (row ⟨n + 1, h⟩ p) (col ⟨n + 1, h⟩ q) (n % 8)

/-- At a last block the output tile holds the whole sum plus the bias. -/
theorem out_eq (c : Dev nD) (n : ℕ) (h : n + 1 < cfg0.N) (h7 : (n + 1) % 8 = 7) (p : Fin 2048) (q : Fin 1024) :
    (outsAt0 m c (n + 1) h).1 (ix2 p q)
      = (∑ k : Fin 4096, A m c (ix2 (row ⟨n + 1, h⟩ p) k) * B m c (ix2 (col ⟨n + 1, h⟩ q) k)) + R m c (ix2 (0 : Fin 1) (col ⟨n + 1, h⟩ q)) := by
  have hN : n + 1 < 256 := lt_of_lt_of_eq h N_0
  have h0 : ¬(n + 1) % 8 = 0 := by omega
  have hk : (n + 1) % 8 = n % 8 + 1 := by omega
  have h6 : n % 8 = 6 := by omega
  have hrow : row ⟨n, Nat.lt_of_succ_lt h⟩ p = row ⟨n + 1, h⟩ p :=
    Fin.ext (by show 2048 * (n / 128) + p.val = 2048 * ((n + 1) / 128) + p.val; omega)
  have hcol : col ⟨n, Nat.lt_of_succ_lt h⟩ q = col ⟨n + 1, h⟩ q :=
    Fin.ext (by show 1024 * (n / 8 % 16) + q.val = 1024 * ((n + 1) / 8 % 16) + q.val; omega)
  have ih := scratch_eq m c n (Nat.lt_of_succ_lt h) p q
  rw [hrow, hcol] at ih
  rw [show outsAt0 m c (n + 1) h = _ from outsAt0_C m c ⟨n + 1, h⟩ h0 h7]
  dsimp only
  rw [CaseVal.out_C, PayVal.pay3_apply _ (iblk m c 2 ⟨n + 1, h⟩) p q, pay2_at m c ⟨n + 1, h⟩ _ p q, iblk2_apply]
  dsimp only
  rw [show (outsAt0 m c (n + 1 - 1) _).2 (ix2 p q) = _ from ih, hk,
    prefix_step (A m c) (B m c) (row ⟨n + 1, h⟩ p) (col ⟨n + 1, h⟩ q) (n % 8), h6]
  exact congrArg (· + R m c (ix2 (0 : Fin 1) (col ⟨n + 1, h⟩ q))) (full (A m c) (B m c) (row ⟨n + 1, h⟩ p) (col ⟨n + 1, h⟩ q))

/-- WHAT A LAST BLOCK'S POINT WRITES BACK is its tile of the product with bias. -/
theorem flushed_eq (c : Dev nD) (t : Fin cfg0.N) (hf : (cfg0.win 3).flush t = true) :
    (dats m 0 c).flushed 3 t = ((cfg0.win 3).blk t).view.read (Elt Ideal) (out (A m c) (B m c) (R m c)) := by
  have h7 : t.val % 8 = 7 := (flush0_3 t).mp hf
  obtain ⟨e6, e7⟩ : win0_3.index t (0 : Fin 2) = t.val / 128 ∧ win0_3.index t (1 : Fin 2) = t.val / 8 % 16 :=
    ⟨(idx_facts t).2.2.2.2.2.2.1, (idx_facts t).2.2.2.2.2.2.2⟩
  show (cfg0.win 3).cut (grid0.coords t) ((dats m 0 c).after 3 t) = _
  rw [after0_3]
  obtain ⟨tv, ht⟩ := t
  cases tv with
  | zero => exact absurd h7 (by show ¬(0 % 8 = 7); decide)
  | succ n =>
    funext j
    obtain ⟨p, q, rfl⟩ : ∃ (p : Fin 2048) (q : Fin 1024), j = ix2 p q := ⟨j 0, j 1, eq_ix2 j⟩
    have hemb : ((cfg0.win 3).blk ⟨n + 1, ht⟩).view.emb (ix2 p q) = ix2 (row ⟨n + 1, ht⟩ p) (col ⟨n + 1, ht⟩ q) := by
      funext a; apply Fin.ext
      match a with
      | ⟨0, _⟩ => show win0_3.index ⟨n + 1, ht⟩ (0 : Fin 2) * 2048 + 1 * p.val = 2048 * ((n + 1) / 128) + p.val; rw [e6]; dsimp only; omega
      | ⟨1, _⟩ => show win0_3.index ⟨n + 1, ht⟩ (1 : Fin 2) * 1024 + 1 * q.val = 1024 * ((n + 1) / 8 % 16) + q.val; rw [e7]; dsimp only; omega
    show (outsAt0 m c (n + 1) ht).1 (ix2 p q) = out (A m c) (B m c) (R m c) (((cfg0.win 3).blk ⟨n + 1, ht⟩).view.emb (ix2 p q))
    rw [hemb, out_eq m c n ht h7 p q]
    rfl

/-- An index of the output array is in a point's tile iff each coordinate is in the tile's range. -/
theorem mem_blk (t : Fin cfg0.N) (i : S4096x16384.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v59).slice (win0_3.rect t)).set ↔ _
  rw [View.set_slice_whole, Rect.mem_set_unit]
  exact Iff.rfl

/-- THE OUTPUT ARRAY after the run: the product with bias. -/
theorem final (c : Dev nD) : (dats m 0 c).arrAt 3 cfg0.N = out (A m c) (B m c) (R m c) :=
  (dats m 0 c).arrAt_eq_of_cover 3 (out (A m c) (B m c) (R m c)) (flushed_eq m c) fun i => by
    have hi0 : (i 0).val < 4096 := (i 0).isLt
    have hi1 : (i 1).val < 16384 := (i 1).isLt
    obtain ⟨tv, htv⟩ : ∃ tv : ℕ, tv = (i 0).val / 2048 * 128 + (i 1).val / 1024 * 8 + 7 := ⟨_, rfl⟩
    have hlt : tv < cfg0.N := by rw [show cfg0.N = 256 from N_0]; omega
    obtain ⟨e6, e7⟩ : win0_3.index ⟨tv, hlt⟩ (0 : Fin 2) = tv / 128 ∧ win0_3.index ⟨tv, hlt⟩ (1 : Fin 2) = tv / 8 % 16 :=
      ⟨(idx_facts ⟨tv, hlt⟩).2.2.2.2.2.2.1, (idx_facts ⟨tv, hlt⟩).2.2.2.2.2.2.2⟩
    refine ⟨⟨tv, hlt⟩, (flush0_3 ⟨tv, hlt⟩).mpr (by show tv % 8 = 7; omega), ?_⟩
    rw [mem_blk]
    intro a
    match a with
    | ⟨0, _⟩ =>
      show win0_3.index ⟨tv, hlt⟩ (0 : Fin 2) * 2048 ≤ (i 0).val ∧ (i 0).val < win0_3.index ⟨tv, hlt⟩ (0 : Fin 2) * 2048 + 2048
      rw [e6]; omega
    | ⟨1, _⟩ =>
      show win0_3.index ⟨tv, hlt⟩ (1 : Fin 2) * 1024 ≤ (i 1).val ∧ (i 1).val < win0_3.index ⟨tv, hlt⟩ (1 : Fin 2) * 1024 + 1024
      rw [e7]; omega

/-- The line after the region reshapes the output array to 1 × 4096 × 16384. -/
theorem tail_eq (c : Dev nD) : Pipeline.afterTail₀ cfgs (dats m) 0 (V0 m) [hostOps1] c main_v60
    = shapeCast S1x4096x16384 (out (A m c) (B m c) (R m c)) shapeCasts_S4096x16384_S1x4096x16384 := by
  have e := (Pipeline.withArrays_arr spec0 launch0.win.arr_inj c (V0 m c) (fun w => (dats m 0 c).arrAt w cfg0.N) 3).trans (final m c)
  unfold Pipeline.afterTail₀
  show StableHlo.after hostOps1 _ (Proc.devRef .tc main_v60) = _
  after_results
  exact congrArg (fun v => shapeCast S1x4096x16384 v shapeCasts_S4096x16384_S1x4096x16384) e

/-- The run, read: the result at the reshaped product with bias, the arguments unchanged. -/
theorem run : θ_run defs (onTc (τ := τ) (main (F := Ideal))) ⟨m, fun _ => 0, ρ⟩ fun r => ∀ c : Dev nD,
      r.2.mem ((c.tc : Thread nD τ).loc main_v60) = shapeCast S1x4096x16384 (out (A m c) (B m c) (R m c)) shapeCasts_S4096x16384_S1x4096x16384
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v60 (Pipeline.mem_restRefs_of main_v60 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.MatVal

end
-- ==== Proof.Bridge.lean ====
/-
  The kernel's side joined: the three arrays its region stages are the de-quantised activations, the de-quantised
  weights and the bias row of the ARGUMENTS (the change to the narrower float format is the identity on the extended
  reals), so its result is the reshaped product with bias of those.
-/
import proofs.«141052_j29618094473423_2_alg».proof.Proof.KHost
import proofs.«141052_j29618094473423_2_alg».proof.Proof.KAccum

noncomputable section

namespace Cert.KernelIdeal.Bridge

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

theorem acts_eq (c : Dev nD) : MatVal.A m c = Cert.Nvfp4.deq (F := Ideal) HostVal.tM HostVal.tL (m ((c : Thread nD τ).loc main_arg0)) := by
  unfold MatVal.A
  rw [HostVal.V_acts]
  rfl

theorem wts_eq (c : Dev nD) : MatVal.B m c
    = Cert.Nvfp4.wdeq (F := Ideal) (m ((c : Thread nD τ).loc main_arg1)) (m ((c : Thread nD τ).loc main_arg2)) := by
  unfold MatVal.B
  rw [HostVal.V_wts]
  rfl

theorem bias_eq (c : Dev nD) : MatVal.R m c = Cert.Nvfp4.biasRow (F := Ideal) (m ((c : Thread nD τ).loc main_arg3)) := by
  unfold MatVal.R
  rw [HostVal.V_bias]

/-- The idealized kernel's result, as a function of its arguments. -/
def result (x : FVec Ideal S1x4096x4096 .f32) (w : FVec Ideal S16384x4096 .f32) (s : FVec Ideal S16384x256 .f32) (b : FVec Ideal S16384 .f32) :
    FVec Ideal S1x4096x16384 .f32 :=
  shapeCast S1x4096x16384
    (Cert.MatSpec.out (Cert.Nvfp4.deq (F := Ideal) HostVal.tM HostVal.tL x) (Cert.Nvfp4.wdeq (F := Ideal) w s) (Cert.Nvfp4.biasRow (F := Ideal) b)) shapeCasts_S4096x16384_S1x4096x16384

/-- The run, read at the arguments. -/
theorem run : θ_run defs (onTc (τ := τ) (main (F := Ideal))) ⟨m, fun _ => 0, ρ⟩ fun r => ∀ c : Dev nD,
      r.2.mem ((c.tc : Thread nD τ).loc main_v60) = result (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by unfold result; rw [acts_eq, wts_eq, bias_eq]), (h c).2⟩) (MatVal.run m ρ)

end Cert.KernelIdeal.Bridge

end
-- ==== Proof.RefRun.lean ====
/-
  The idealized reference read back: its ninety-two host operations in order (the two clips and the rounding written out
  where they are called), the run of that straight line, and the one result as a function of the argument arrays —
  the same de-quantisations as the kernel's host lines, then the whole matrix product against the transposed weights,
  the zero the product is added to, and the bias row repeated over the rows.
-/
import proofs.«141052_j29618094473423_2_alg».proof.Proof.Quant
import proofs.«141052_j29618094473423_2_alg».proof.Proof.Gen.ReferenceIdeal
import Idealize.ShloMosaic.Lib.StableHlo.Run
import Idealize.ShloMosaic.Lib.Pipeline.Regions

noncomputable section

namespace Cert.ReferenceIdeal.RefRun

open Idealize.ShloMosaic Idealize.ShloMosaic.TcCoe Idealize.SL.Sem Idealize.ShloMosaic.StableHlo
open Cert.ReferenceIdeal Cert.ReferenceIdeal.Gen

variable {F : FTy → Type} [FloatOps F]

/-- The reference's operations, in order. -/
abbrev ops : List (HloOp τ sig (Elt F)) :=
  [ StableHlo.nullary main_cst (fun i => FloatOps.ofBits .f32 (lit0 (S7.rowMajor i))),
    StableHlo.nullary main_cst_0 (fun i => FloatOps.ofBits .f32 (lit1 (S8.rowMajor i))),
    StableHlo.reshape main_arg0 main_v0 rfl shapeCasts_S1x4096x4096_S4096x4096,
    StableHlo.reshape main_v0 main_v1 rfl shapeCasts_S4096x4096_S4096x256x16,
    StableHlo.unary main_v1 main_v2 (Host.absf : (⟨S4096x256x16, .f32⟩ : BufTy).Contents (Elt F) → (⟨S4096x256x16, .f32⟩ : BufTy).Contents (Elt F)),
    StableHlo.nullary main_cst_1 (constant S_ .f32 0xFF800000#32),
    StableHlo.binary main_v2 main_cst_1 main_v3 ((fun x v => Host.reduce FloatOps.maximumf x v reducesTo_S4096x256x16_S4096x256_d2 h_S_) : (⟨S4096x256x16, .f32⟩ : BufTy).Contents (Elt F) → (⟨S_, .f32⟩ : BufTy).Contents (Elt F) → (⟨S4096x256, .f32⟩ : BufTy).Contents (Elt F)),
    StableHlo.nullary main_cst_2 (constant S_ .f32 0x40C00000#32),
    StableHlo.unary main_cst_2 main_v4 (broadcastInDim S4096x256 ![] bcast_S_S4096x256 : (⟨S_, .f32⟩ : BufTy).Contents (Elt F) → (⟨S4096x256, .f32⟩ : BufTy).Contents (Elt F)),
    StableHlo.binary main_v3 main_v4 main_v5 (Host.divf : (⟨S4096x256, .f32⟩ : BufTy).Contents (Elt F) → (⟨S4096x256, .f32⟩ : BufTy).Contents (Elt F) → (⟨S4096x256, .f32⟩ : BufTy).Contents (Elt F)),
    StableHlo.nullary main_cst_3 (constant S_ .f32 0x2B8CBCCC#32),
    StableHlo.unary main_cst_3 main_v6 (broadcastInDim S4096x256 ![] bcast_S_S4096x256 : (⟨S_, .f32⟩ : BufTy).Contents (Elt F) → (⟨S4096x256, .f32⟩ : BufTy).Contents (Elt F)),
    StableHlo.binary main_v5 main_v6 main_v7 (maximumf : (⟨S4096x256, .f32⟩ : BufTy).Contents (Elt F) → (⟨S4096x256, .f32⟩ : BufTy).Contents (Elt F) → (⟨S4096x256, .f32⟩ : BufTy).Contents (Elt F)),
    StableHlo.nullary main_cst_4 (constant S_ .f32 0x0DA24260#32),
    StableHlo.unary main_cst_4 main_v8 (broadcastInDim S4096x256 ![] bcast_S_S4096x256 : (⟨S_, .f32⟩ : BufTy).Contents (Elt F) → (⟨S4096x256, .f32⟩ : BufTy).Contents (Elt F)),
    StableHlo.binary main_v7 main_v8 main_v9 (maximumf : (⟨S4096x256, .f32⟩ : BufTy).Contents (Elt F) → (⟨S4096x256, .f32⟩ : BufTy).Contents (Elt F) → (⟨S4096x256, .f32⟩ : BufTy).Contents (Elt F)),
    StableHlo.unary main_v9 main_v10 (Host.log : (⟨S4096x256, .f32⟩ : BufTy).Contents (Elt F) → (⟨S4096x256, .f32⟩ : BufTy).Contents (Elt F)),
    StableHlo.nullary main_cst_5 (constant S_ .f32 0x40000000#32),
    StableHlo.unary main_cst_5 main_v11 (Host.log : (⟨S_, .f32⟩ : BufTy).Contents (Elt F) → (⟨S_, .f32⟩ : BufTy).Contents (Elt F)),
    StableHlo.unary main_v11 main_v12 (broadcastInDim S4096x256 ![] bcast_S_S4096x256 : (⟨S_, .f32⟩ : BufTy).Contents (Elt F) → (⟨S4096x256, .f32⟩ : BufTy).Contents (Elt F)),
    StableHlo.binary main_v10 main_v12 main_v13 (Host.divf : (⟨S4096x256, .f32⟩ : BufTy).Contents (Elt F) → (⟨S4096x256, .f32⟩ : BufTy).Contents (Elt F) → (⟨S4096x256, .f32⟩ : BufTy).Contents (Elt F)),
    StableHlo.unary main_v13 main_v14 (Host.floor : (⟨S4096x256, .f32⟩ : BufTy).Contents (Elt F) → (⟨S4096x256, .f32⟩ : BufTy).Contents (Elt F)),
    StableHlo.nullary main_cst_6 (constant S_ .f32 0xC0C00000#32),
    StableHlo.nullary main_cst_7 (constant S_ .f32 0x41000000#32),
    StableHlo.TRef.unary (.of main_cst_6 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S4096x256, .f32⟩) (broadcastInDim S4096x256 ![] bcast_S_S4096x256),
    StableHlo.TRef.binary (.of main_call0_v1 : StableHlo.TRef sig ⟨S4096x256, .f32⟩) (.of main_v14 : StableHlo.TRef sig ⟨S4096x256, .f32⟩) (.of main_call0_v2 : StableHlo.TRef sig ⟨S4096x256, .f32⟩) maximumf,
    StableHlo.TRef.unary (.of main_cst_7 : StableHlo.TRef sig ⟨S_, .f32⟩) (.of main_call0_v3 : StableHlo.TRef sig ⟨S_, .f32⟩) id,
    StableHlo.TRef.unary (.of main_call0_v3 : StableHlo.TRef sig ⟨S_, .f32⟩) (.of main_call0_v4 : StableHlo.TRef sig ⟨S4096x256, .f32⟩) (broadcastInDim S4096x256 ![] bcast_S_S4096x256),
    StableHlo.TRef.binary (.of main_call0_v4 : StableHlo.TRef sig ⟨S4096x256, .f32⟩) (.of main_call0_v2 : StableHlo.TRef sig ⟨S4096x256, .f32⟩) (.of main_v15 : StableHlo.TRef sig ⟨S4096x256, .f32⟩) minimumf,
    StableHlo.nullary main_cst_8 (constant S_ .f32 0x40400000#32),
    StableHlo.unary main_cst_8 main_v16 (broadcastInDim S4096x256 ![] bcast_S_S4096x256 : (⟨S_, .f32⟩ : BufTy).Contents (Elt F) → (⟨S4096x256, .f32⟩ : BufTy).Contents (Elt F)),
    StableHlo.binary main_v15 main_v16 main_v17 (subf : (⟨S4096x256, .f32⟩ : BufTy).Contents (Elt F) → (⟨S4096x256, .f32⟩ : BufTy).Contents (Elt F) → (⟨S4096x256, .f32⟩ : BufTy).Contents (Elt F)),
    StableHlo.nullary main_cst_9 (constant S_ .f32 0x3F317218#32),
    StableHlo.unary main_cst_9 main_v18 (broadcastInDim S4096x256 ![] bcast_S_S4096x256 : (⟨S_, .f32⟩ : BufTy).Contents (Elt F) → (⟨S4096x256, .f32⟩ : BufTy).Contents (Elt F)),
    StableHlo.binary main_v18 main_v17 main_v19 (mulf : (⟨S4096x256, .f32⟩ : BufTy).Contents (Elt F) → (⟨S4096x256, .f32⟩ : BufTy).Contents (Elt F) → (⟨S4096x256, .f32⟩ : BufTy).Contents (Elt F)),
    StableHlo.unary main_v19 main_v20 (Host.exp : (⟨S4096x256, .f32⟩ : BufTy).Contents (Elt F) → (⟨S4096x256, .f32⟩ : BufTy).Contents (Elt F)),
    StableHlo.binary main_v7 main_v20 main_v21 (Host.divf : (⟨S4096x256, .f32⟩ : BufTy).Contents (Elt F) → (⟨S4096x256, .f32⟩ : BufTy).Contents (Elt F) → (⟨S4096x256, .f32⟩ : BufTy).Contents (Elt F)),
    StableHlo.TRef.unary (.of main_v21 : StableHlo.TRef sig ⟨S4096x256, .f32⟩) (.of main_v22 : StableHlo.TRef sig ⟨S4096x256, .f32⟩) Host.roundeven,
    StableHlo.binary main_v22 main_v20 main_v23 (mulf : (⟨S4096x256, .f32⟩ : BufTy).Contents (Elt F) → (⟨S4096x256, .f32⟩ : BufTy).Contents (Elt F) → (⟨S4096x256, .f32⟩ : BufTy).Contents (Elt F)),
    StableHlo.nullary main_cst_10 (constant S_ .f32 0x00000000#32),
    StableHlo.nullary main_cst_11 (constant S_ .f32 0x43E00000#32),
    StableHlo.TRef.unary (.of main_cst_10 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S4096x256, .f32⟩) (broadcastInDim S4096x256 ![] bcast_S_S4096x256),
    StableHlo.TRef.binary (.of main_call2_v1 : StableHlo.TRef sig ⟨S4096x256, .f32⟩) (.of main_v23 : StableHlo.TRef sig ⟨S4096x256, .f32⟩) (.of main_call2_v2 : StableHlo.TRef sig ⟨S4096x256, .f32⟩) maximumf,
    StableHlo.TRef.unary (.of main_cst_11 : StableHlo.TRef sig ⟨S_, .f32⟩) (.of main_call2_v3 : StableHlo.TRef sig ⟨S_, .f32⟩) id,
    StableHlo.TRef.unary (.of main_call2_v3 : StableHlo.TRef sig ⟨S_, .f32⟩) (.of main_call2_v4 : StableHlo.TRef sig ⟨S4096x256, .f32⟩) (broadcastInDim S4096x256 ![] bcast_S_S4096x256),
    StableHlo.TRef.binary (.of main_call2_v4 : StableHlo.TRef sig ⟨S4096x256, .f32⟩) (.of main_call2_v2 : StableHlo.TRef sig ⟨S4096x256, .f32⟩) (.of main_v24 : StableHlo.TRef sig ⟨S4096x256, .f32⟩) minimumf,
    StableHlo.nullary main_cst_12 (constant S_ .f32 0x3B000000#32),
    StableHlo.unary main_cst_12 main_v25 (broadcastInDim S4096x256 ![] bcast_S_S4096x256 : (⟨S_, .f32⟩ : BufTy).Contents (Elt F) → (⟨S4096x256, .f32⟩ : BufTy).Contents (Elt F)),
    StableHlo.binary main_v24 main_v25 main_v26 (maximumf : (⟨S4096x256, .f32⟩ : BufTy).Contents (Elt F) → (⟨S4096x256, .f32⟩ : BufTy).Contents (Elt F) → (⟨S4096x256, .f32⟩ : BufTy).Contents (Elt F)),
    StableHlo.unary main_v26 main_v27 (broadcastInDim S4096x256x1 ![0, 1] bcast_S4096x256_S4096x256x1_0_1 : (⟨S4096x256, .f32⟩ : BufTy).Contents (Elt F) → (⟨S4096x256x1, .f32⟩ : BufTy).Contents (Elt F)),
    StableHlo.unary main_v27 main_v28 (broadcastInDim S4096x256x16 ![0, 1, 2] bcast_S4096x256x1_S4096x256x16_0_1_2 : (⟨S4096x256x1, .f32⟩ : BufTy).Contents (Elt F) → (⟨S4096x256x16, .f32⟩ : BufTy).Contents (Elt F)),
    StableHlo.binary main_v1 main_v28 main_v29 (Host.divf : (⟨S4096x256x16, .f32⟩ : BufTy).Contents (Elt F) → (⟨S4096x256x16, .f32⟩ : BufTy).Contents (Elt F) → (⟨S4096x256x16, .f32⟩ : BufTy).Contents (Elt F)),
    StableHlo.unary main_v29 main_v30 (Host.absf : (⟨S4096x256x16, .f32⟩ : BufTy).Contents (Elt F) → (⟨S4096x256x16, .f32⟩ : BufTy).Contents (Elt F)),
    StableHlo.unary main_v30 main_v31 (broadcastInDim S4096x256x16x1 ![0, 1, 2] bcast_S4096x256x16_S4096x256x16x1_0_1_2 : (⟨S4096x256x16, .f32⟩ : BufTy).Contents (Elt F) → (⟨S4096x256x16x1, .f32⟩ : BufTy).Contents (Elt F)),
    StableHlo.unary main_cst main_v32 (broadcastInDim S1x1x1x7 ![3] bcast_S7_S1x1x1x7_3 : (⟨S7, .f32⟩ : BufTy).Contents (Elt F) → (⟨S1x1x1x7, .f32⟩ : BufTy).Contents (Elt F)),
    StableHlo.unary main_v31 main_v33 (broadcastInDim S4096x256x16x7 ![0, 1, 2, 3] bcast_S4096x256x16x1_S4096x256x16x7_0_1_2_3 : (⟨S4096x256x16x1, .f32⟩ : BufTy).Contents (Elt F) → (⟨S4096x256x16x7, .f32⟩ : BufTy).Contents (Elt F)),
    StableHlo.unary main_v32 main_v34 (broadcastInDim S4096x256x16x7 ![0, 1, 2, 3] bcast_S1x1x1x7_S4096x256x16x7_0_1_2_3 : (⟨S1x1x1x7, .f32⟩ : BufTy).Contents (Elt F) → (⟨S4096x256x16x7, .f32⟩ : BufTy).Contents (Elt F)),
    StableHlo.binary main_v33 main_v34 main_v35 (cmpf .ogt : (⟨S4096x256x16x7, .f32⟩ : BufTy).Contents (Elt F) → (⟨S4096x256x16x7, .f32⟩ : BufTy).Contents (Elt F) → (⟨S4096x256x16x7, .i1⟩ : BufTy).Contents (Elt F)),
    StableHlo.unary main_v35 main_v36 ((extui 32 · natLt_1_32) : (⟨S4096x256x16x7, .i1⟩ : BufTy).Contents (Elt F) → (⟨S4096x256x16x7, .i32⟩ : BufTy).Contents (Elt F)),
    StableHlo.nullary main_c (constantI S_ 32 0#32),
    StableHlo.binary main_v36 main_c main_v37 ((fun x v => Host.reduce IntOp.addi x v reducesTo_S4096x256x16x7_S4096x256x16_d3 h_S_) : (⟨S4096x256x16x7, .i32⟩ : BufTy).Contents (Elt F) → (⟨S_, .i32⟩ : BufTy).Contents (Elt F) → (⟨S4096x256x16, .i32⟩ : BufTy).Contents (Elt F)),
    StableHlo.unary main_v29 main_v38 (Host.sign : (⟨S4096x256x16, .f32⟩ : BufTy).Contents (Elt F) → (⟨S4096x256x16, .f32⟩ : BufTy).Contents (Elt F)),
    StableHlo.nullary main_c_13 (constantI S_ 32 0#32),
    StableHlo.unary main_c_13 main_v39 (broadcastInDim S4096x256x16 ![] bcast_S_S4096x256x16 : (⟨S_, .i32⟩ : BufTy).Contents (Elt F) → (⟨S4096x256x16, .i32⟩ : BufTy).Contents (Elt F)),
    StableHlo.binary main_v37 main_v39 main_v40 (cmpi .slt : (⟨S4096x256x16, .i32⟩ : BufTy).Contents (Elt F) → (⟨S4096x256x16, .i32⟩ : BufTy).Contents (Elt F) → (⟨S4096x256x16, .i1⟩ : BufTy).Contents (Elt F)),
    StableHlo.nullary main_c_14 (constantI S_ 32 8#32),
    StableHlo.unary main_c_14 main_v41 (broadcastInDim S4096x256x16 ![] bcast_S_S4096x256x16 : (⟨S_, .i32⟩ : BufTy).Contents (Elt F) → (⟨S4096x256x16, .i32⟩ : BufTy).Contents (Elt F)),
    StableHlo.binary main_v37 main_v41 main_v42 (addi : (⟨S4096x256x16, .i32⟩ : BufTy).Contents (Elt F) → (⟨S4096x256x16, .i32⟩ : BufTy).Contents (Elt F) → (⟨S4096x256x16, .i32⟩ : BufTy).Contents (Elt F)),
    StableHlo.ternary main_v40 main_v42 main_v37 main_v43 (select : (⟨S4096x256x16, .i1⟩ : BufTy).Contents (Elt F) → (⟨S4096x256x16, .i32⟩ : BufTy).Contents (Elt F) → (⟨S4096x256x16, .i32⟩ : BufTy).Contents (Elt F) → (⟨S4096x256x16, .i32⟩ : BufTy).Contents (Elt F)),
    StableHlo.unary main_v43 main_v44 (broadcastInDim S4096x256x16x1 ![0, 1, 2] bcast_S4096x256x16_S4096x256x16x1_0_1_2 : (⟨S4096x256x16, .i32⟩ : BufTy).Contents (Elt F) → (⟨S4096x256x16x1, .i32⟩ : BufTy).Contents (Elt F)),
    StableHlo.binary main_cst_0 main_v44 main_v45 ((fun x i => Host.gather gather_S8_S4096x256x16x1_S4096x256x16_n_0_n_n_0_3_1 x i) : (⟨S8, .f32⟩ : BufTy).Contents (Elt F) → (⟨S4096x256x16x1, .i32⟩ : BufTy).Contents (Elt F) → (⟨S4096x256x16, .f32⟩ : BufTy).Contents (Elt F)),
    StableHlo.binary main_v38 main_v45 main_v46 (mulf : (⟨S4096x256x16, .f32⟩ : BufTy).Contents (Elt F) → (⟨S4096x256x16, .f32⟩ : BufTy).Contents (Elt F) → (⟨S4096x256x16, .f32⟩ : BufTy).Contents (Elt F)),
    StableHlo.unary main_v26 main_v47 (broadcastInDim S4096x256x1 ![0, 1] bcast_S4096x256_S4096x256x1_0_1 : (⟨S4096x256, .f32⟩ : BufTy).Contents (Elt F) → (⟨S4096x256x1, .f32⟩ : BufTy).Contents (Elt F)),
    StableHlo.unary main_v47 main_v48 (broadcastInDim S4096x256x16 ![0, 1, 2] bcast_S4096x256x1_S4096x256x16_0_1_2 : (⟨S4096x256x1, .f32⟩ : BufTy).Contents (Elt F) → (⟨S4096x256x16, .f32⟩ : BufTy).Contents (Elt F)),
    StableHlo.binary main_v46 main_v48 main_v49 (mulf : (⟨S4096x256x16, .f32⟩ : BufTy).Contents (Elt F) → (⟨S4096x256x16, .f32⟩ : BufTy).Contents (Elt F) → (⟨S4096x256x16, .f32⟩ : BufTy).Contents (Elt F)),
    StableHlo.reshape main_v49 main_v50 rfl shapeCasts_S4096x256x16_S4096x4096,
    StableHlo.reshape main_arg1 main_v51 rfl shapeCasts_S16384x4096_S16384x256x16,
    StableHlo.unary main_arg2 main_v52 (broadcastInDim S16384x256x1 ![0, 1] bcast_S16384x256_S16384x256x1_0_1 : (⟨S16384x256, .f32⟩ : BufTy).Contents (Elt F) → (⟨S16384x256x1, .f32⟩ : BufTy).Contents (Elt F)),
    StableHlo.unary main_v52 main_v53 (broadcastInDim S16384x256x16 ![0, 1, 2] bcast_S16384x256x1_S16384x256x16_0_1_2 : (⟨S16384x256x1, .f32⟩ : BufTy).Contents (Elt F) → (⟨S16384x256x16, .f32⟩ : BufTy).Contents (Elt F)),
    StableHlo.binary main_v51 main_v53 main_v54 (mulf : (⟨S16384x256x16, .f32⟩ : BufTy).Contents (Elt F) → (⟨S16384x256x16, .f32⟩ : BufTy).Contents (Elt F) → (⟨S16384x256x16, .f32⟩ : BufTy).Contents (Elt F)),
    StableHlo.reshape main_v54 main_v55 rfl shapeCasts_S16384x256x16_S16384x4096,
    StableHlo.unary main_v55 main_v56 ((transpose S4096x16384 [1, 0] · transposes_S16384x4096_S4096x16384_1_0) : (⟨S16384x4096, .f32⟩ : BufTy).Contents (Elt F) → (⟨S4096x16384, .f32⟩ : BufTy).Contents (Elt F)),
    StableHlo.binary main_v50 main_v56 main_v57 ((fun l r => Host.dotGeneral dot_S4096x4096_S4096x16384_S4096x16384_1_0_0_1_n_n none l r) : (⟨S4096x4096, .f32⟩ : BufTy).Contents (Elt F) → (⟨S4096x16384, .f32⟩ : BufTy).Contents (Elt F) → (⟨S4096x16384, .f32⟩ : BufTy).Contents (Elt F)),
    StableHlo.nullary main_cst_15 (constant S_ .f32 0x00000000#32),
    StableHlo.unary main_cst_15 main_v58 (broadcastInDim S4096x16384 ![] bcast_S_S4096x16384 : (⟨S_, .f32⟩ : BufTy).Contents (Elt F) → (⟨S4096x16384, .f32⟩ : BufTy).Contents (Elt F)),
    StableHlo.binary main_v58 main_v57 main_v59 (addf : (⟨S4096x16384, .f32⟩ : BufTy).Contents (Elt F) → (⟨S4096x16384, .f32⟩ : BufTy).Contents (Elt F) → (⟨S4096x16384, .f32⟩ : BufTy).Contents (Elt F)),
    StableHlo.unary main_arg3 main_v60 (broadcastInDim S1x16384 ![1] bcast_S16384_S1x16384_1 : (⟨S16384, .f32⟩ : BufTy).Contents (Elt F) → (⟨S1x16384, .f32⟩ : BufTy).Contents (Elt F)),
    StableHlo.unary main_v60 main_v61 (broadcastInDim S4096x16384 ![0, 1] bcast_S1x16384_S4096x16384_0_1 : (⟨S1x16384, .f32⟩ : BufTy).Contents (Elt F) → (⟨S4096x16384, .f32⟩ : BufTy).Contents (Elt F)),
    StableHlo.binary main_v59 main_v61 main_v62 (addf : (⟨S4096x16384, .f32⟩ : BufTy).Contents (Elt F) → (⟨S4096x16384, .f32⟩ : BufTy).Contents (Elt F) → (⟨S4096x16384, .f32⟩ : BufTy).Contents (Elt F)),
    StableHlo.reshape main_v62 main_v63 rfl shapeCasts_S4096x16384_S1x4096x16384 ]

/-- The reference is that straight line. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    StableHlo.nullary_bufs_sub .., StableHlo.nullary_bufs_sub .., StableHlo.reshape_bufs_sub .., StableHlo.reshape_bufs_sub .., StableHlo.unary_bufs_sub .., StableHlo.nullary_bufs_sub ..,
    StableHlo.binary_bufs_sub .., StableHlo.nullary_bufs_sub .., StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.unary_bufs_sub .., StableHlo.nullary_bufs_sub ..,
    StableHlo.unary_bufs_sub .., StableHlo.unary_bufs_sub .., StableHlo.binary_bufs_sub .., StableHlo.unary_bufs_sub .., StableHlo.nullary_bufs_sub .., StableHlo.nullary_bufs_sub ..,
    StableHlo.unary_bufs_sub .., StableHlo.unary_bufs_sub .., StableHlo.binary_bufs_sub .., StableHlo.unary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.unary_bufs_sub .., StableHlo.binary_bufs_sub .., StableHlo.unary_bufs_sub .., StableHlo.binary_bufs_sub .., StableHlo.nullary_bufs_sub .., StableHlo.nullary_bufs_sub ..,
    StableHlo.unary_bufs_sub .., StableHlo.unary_bufs_sub .., StableHlo.binary_bufs_sub .., StableHlo.unary_bufs_sub .., StableHlo.unary_bufs_sub .., StableHlo.binary_bufs_sub ..,
    StableHlo.nullary_bufs_sub .., StableHlo.unary_bufs_sub .., StableHlo.binary_bufs_sub .., StableHlo.unary_bufs_sub .., StableHlo.unary_bufs_sub .., StableHlo.binary_bufs_sub ..,
    StableHlo.unary_bufs_sub .., StableHlo.unary_bufs_sub .., StableHlo.unary_bufs_sub .., StableHlo.unary_bufs_sub .., StableHlo.unary_bufs_sub .., StableHlo.binary_bufs_sub ..,
    StableHlo.unary_bufs_sub .., StableHlo.nullary_bufs_sub .., StableHlo.binary_bufs_sub .., StableHlo.unary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.binary_bufs_sub .., StableHlo.unary_bufs_sub .., StableHlo.unary_bufs_sub .., StableHlo.binary_bufs_sub .., StableHlo.reshape_bufs_sub ..,
    StableHlo.reshape_bufs_sub .., StableHlo.unary_bufs_sub .., StableHlo.unary_bufs_sub .., StableHlo.binary_bufs_sub .., StableHlo.reshape_bufs_sub .., StableHlo.unary_bufs_sub ..,
    StableHlo.binary_bufs_sub .., StableHlo.nullary_bufs_sub .., StableHlo.unary_bufs_sub .., StableHlo.binary_bufs_sub .., StableHlo.unary_bufs_sub .., StableHlo.unary_bufs_sub ..,
    StableHlo.binary_bufs_sub .., StableHlo.reshape_bufs_sub ..⟩

/-- Every weakly fair execution of the reference terminates with each buffer at the fold of the operations over the launch
    contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibHostDotNN.lean ====
/-
  The host's matrix product of an M × K left operand by a K × N right operand (the left contracted on its second axis,
  the right on its first: jnp's x @ y), read at one entry of the result on the extended reals: entry (p, q) is the sum
  over k of left (p, k) · right (k, q), with no accumulator and whatever the precision. Every extent is arbitrary; the
  dimension record is any record with that contraction, its few structural facts passed as hypotheses (each is closed
  by rfl at a printed record).
-/
import Idealize.ShloMosaic.PureOps.Ideal.Laws
import Idealize.ShloMosaic.Lib.ValueIdx

noncomputable section

namespace Cert.HostDotNN

open Idealize.ShloMosaic Idealize.ShloMosaic.ValueIdx

/-- Entry (p, q) of the host's left · right is ∑ₖ left (p, k) · right (k, q). -/
theorem apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ (j : (⟨2, ![M, N]⟩ : Shape).Idx) (q : d.contr.Idx), (d.lhsIdx j q 0).val = (j 0).val)
    (hr1 : ∀ (j : (⟨2, ![M, N]⟩ : Shape).Idx) (q : d.contr.Idx), (d.rhsIdx j q 1).val = (j 1).val)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

end Cert.HostDotNN

end
-- ==== Proof.RefVal.lean ====
/-
  The idealized reference's one result as a function of its arguments, and that function read entry by entry on the
  extended reals: the de-quantised activations times the transposed de-quantised weights — at (r, q) the sum over n
  of the activations at (r, n) times the weights at (q, n) —, added to zero, plus the bias at q.
-/
import proofs.«141052_j29618094473423_2_alg».proof.Proof.RefRun
import proofs.«141052_j29618094473423_2_alg».proof.Proof.MatSpec
import proofs.«141052_j29618094473423_2_alg».proof.Proof.LibHostDotNN
import Idealize.ShloMosaic.Lib.Pipeline.Value
import Idealize.ShloMosaic.Lib.ValueLayout
import Idealize.ShloMosaic.PureOps.Ideal.Laws

noncomputable section

namespace Cert.ReferenceIdeal.RefVal

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.RefRun

variable {F : FTy → Type} [FloatOps F]

/-- The seven midpoints and the eight magnitudes, as this program's literal tables. -/
def tM : FVec F S7 .f32 := fun i => FloatOps.ofBits .f32 (lit0 (S7.rowMajor i))
def tL : FVec F S8 .f32 := fun i => FloatOps.ofBits .f32 (lit1 (S8.rowMajor i))

/-- The reference's result of its four arguments. -/
def result (x : FVec F S1x4096x4096 .f32) (w : FVec F S16384x4096 .f32) (s : FVec F S16384x256 .f32) (b : FVec F S16384 .f32) :
    FVec F S1x4096x16384 .f32 :=
  shapeCast S1x4096x16384
    (addf (addf (broadcastInDim S4096x16384 ![] bcast_S_S4096x16384 (constant S_ .f32 0x00000000#32))
        (Host.dotGeneral dot_S4096x4096_S4096x16384_S4096x16384_1_0_0_1_n_n none (Cert.Nvfp4.deq tM tL x)
          (transpose S4096x16384 [1, 0] (Cert.Nvfp4.wdeq w s) transposes_S16384x4096_S4096x16384_1_0)))
      (broadcastInDim S4096x16384 ![0, 1] bcast_S1x16384_S4096x16384_0_1 (broadcastInDim S1x16384 ![1] bcast_S16384_S1x16384_1 b)))
    shapeCasts_S4096x16384_S1x4096x16384

set_option maxRecDepth 65536 in
set_option maxHeartbeats 4000000 in
/-- The run, read: the result buffer at that function of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63) = result (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v63).trans (by after_results_simp; rfl),
      (h c main_arg0).trans (by after_results_simp),
      (h c main_arg1).trans (by after_results_simp),
      (h c main_arg2).trans (by after_results_simp),
      (h c main_arg3).trans (by after_results_simp)⟩)
    (run_all m ρ)

/-- On the extended reals the result is the product with bias of the three de-quantised arrays, as a 1 × 4096 × 16384
    array. -/
theorem result_ideal (x : FVec Ideal S1x4096x4096 .f32) (w : FVec Ideal S16384x4096 .f32) (s : FVec Ideal S16384x256 .f32)
    (b : FVec Ideal S16384 .f32) :
    result x w s b = shapeCast S1x4096x16384
      (Cert.MatSpec.out (Cert.Nvfp4.deq tM tL x) (Cert.Nvfp4.wdeq w s) (Cert.Nvfp4.biasRow b)) shapeCasts_S4096x16384_S1x4096x16384 := by
  unfold result
  refine congrArg (fun v => shapeCast S1x4096x16384 v shapeCasts_S4096x16384_S1x4096x16384) (funext fun i => ?_)
  obtain ⟨r, q, rfl⟩ : ∃ (r : Fin 4096) (q : Fin 16384), i = ix2 r q := ⟨i 0, i 1, eq_ix2 i⟩
  rw [addf_apply, addf_apply]
  have e0 : broadcastInDim S4096x16384 ![] bcast_S_S4096x16384 (constant (F := Ideal) S_ .f32 0x00000000#32) (ix2 r q) = 0 :=
    (broadcastInDim_apply ![] bcast_S_S4096x16384 (constant (F := Ideal) S_ .f32 0x00000000#32) (ix2 r q) ix0 fun a => a.elim0).trans
      Ideal.ofBits_zero_f32
  have e1 : Host.dotGeneral dot_S4096x4096_S4096x16384_S4096x16384_1_0_0_1_n_n none (Cert.Nvfp4.deq tM tL x)
        (transpose S4096x16384 [1, 0] (Cert.Nvfp4.wdeq w s) transposes_S16384x4096_S4096x16384_1_0) (ix2 r q)
      = ∑ n : Fin 4096, Cert.Nvfp4.deq tM tL x (ix2 r n) * Cert.Nvfp4.wdeq w s (ix2 q n) := by
    rw [Cert.HostDotNN.apply dot_S4096x4096_S4096x16384_S4096x16384_1_0_0_1_n_n rfl rfl rfl rfl (fun _ _ => rfl) (fun _ _ => rfl)]
    exact Finset.sum_congr rfl fun n _ => congrArg (_ * ·)
      (transpose_ix2_apply (Cert.Nvfp4.wdeq w s) transposes_S16384x4096_S4096x16384_1_0 n q)
  have e2 : broadcastInDim S4096x16384 ![0, 1] bcast_S1x16384_S4096x16384_0_1 (broadcastInDim S1x16384 ![1] bcast_S16384_S1x16384_1 b) (ix2 r q)
      = Cert.Nvfp4.biasRow b (ix2 (0 : Fin 1) q) := by
    refine (broadcastInDim_apply ![0, 1] bcast_S1x16384_S4096x16384_0_1 _ (ix2 r q) (ix2 (0 : Fin 1) q) fun a => by
      match a with
      | ⟨0, _⟩ => rfl
      | ⟨1, _⟩ => rfl).trans ?_
    refine (broadcastInDim_apply ![1] bcast_S16384_S1x16384_1 b (ix2 (0 : Fin 1) q) (ix1 q) fun a => by
      match a with
      | ⟨0, _⟩ => rfl).trans ?_
    unfold Cert.Nvfp4.biasRow
    exact (shapeCast_apply b Cert.Nvfp4.shapeCasts_S16384_S1x16384 (ix2 (0 : Fin 1) q) (ix1 q) (by
      rw [Shape.rowMajor_val_one, Shape.rowMajor_val_two]
      show q.val = 0 * 16384 + q.val
      omega)).symm
  rw [e0, e1, e2, zero_add]
  rfl

end Cert.ReferenceIdeal.RefVal

end
-- ==== Proof.lean ====
/-
  A blockwise four-bit quantised linear layer: the activations are quantised and de-quantised block by block on the
  host, the stored weights are de-quantised block by block on the host, and the product with bias is computed by a
  tiled kernel that accumulates the contraction axis in eight blocks — against a reference that does the same host
  work and takes the whole product at once. On the extended reals a change of float format is the identity and a sum
  may be grouped in any way, so both results are one function of the four arguments: the host work is the same
  operations on the same arguments (the two programs' literal tables hold the same words), and the eight partial sums
  added in turn to zero are the whole sum. No finiteness of the inputs is used.
-/
import proofs.«141052_j29618094473423_2_alg».proof.Defs
import proofs.«141052_j29618094473423_2_alg».proof.Proof.Gen.Kernel
import proofs.«141052_j29618094473423_2_alg».proof.Proof.Gen.Kernel.Skeleton
import proofs.«141052_j29618094473423_2_alg».proof.Proof.Gen.Kernel.Launch
import proofs.«141052_j29618094473423_2_alg».proof.Proof.Gen.Kernel.Points
import proofs.«141052_j29618094473423_2_alg».proof.Proof.Gen.Kernel.Frame
import proofs.«141052_j29618094473423_2_alg».proof.Proof.Gen.KernelIdeal
import proofs.«141052_j29618094473423_2_alg».proof.Proof.Gen.KernelIdeal.Skeleton
import proofs.«141052_j29618094473423_2_alg».proof.Proof.Gen.KernelIdeal.Launch
import proofs.«141052_j29618094473423_2_alg».proof.Proof.Gen.KernelIdeal.Points
import proofs.«141052_j29618094473423_2_alg».proof.Proof.Gen.KernelIdeal.Frame
import proofs.«141052_j29618094473423_2_alg».proof.Proof.Gen.ReferenceIdeal
import proofs.«141052_j29618094473423_2_alg».proof.Proof.Gen.Pre_finite_inputs
import proofs.«141052_j29618094473423_2_alg».proof.Proof.Bridge
import proofs.«141052_j29618094473423_2_alg».proof.Proof.RefVal
import Idealize.ShloMosaic.Adequacy
import Idealize.ShloMosaic.Init

noncomputable section

namespace Cert.Proof

open Idealize.ShloMosaic Idealize.SL.Sem

/-- The two programs' tables of midpoints hold the same words, -/
theorem lit0_eq : ∀ k : Fin 7, Cert.KernelIdeal.lit0 k = Cert.ReferenceIdeal.lit0 k := by decide
/-- and so do their tables of magnitudes. -/
theorem lit1_eq : ∀ k : Fin 8, Cert.KernelIdeal.lit1 k = Cert.ReferenceIdeal.lit1 k := by decide

theorem tM_eq : (Cert.ReferenceIdeal.RefVal.tM (F := Ideal)) = Cert.KernelIdeal.HostVal.tM :=
  funext fun i => congrArg (FloatOps.ofBits (F := Ideal) .f32) (lit0_eq _).symm
theorem tL_eq : (Cert.ReferenceIdeal.RefVal.tL (F := Ideal)) = Cert.KernelIdeal.HostVal.tL :=
  funext fun i => congrArg (FloatOps.ofBits (F := Ideal) .f32) (lit1_eq _).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefVal.run (F := Ideal) m ρ)

theorem preserves : Cert.preserves_Kernel_KernelIdeal := trivial

/-- Both runs end at the reshaped product with bias of the de-quantised arguments. -/
theorem algebraic : Cert.algebraic_KernelIdeal_ReferenceIdeal := by
  intro m ρ m' ρ' _ hagree
  refine ⟨_, Cert.KernelIdeal.Bridge.run m ρ, ?_⟩
  refine (θ_run Cert.ReferenceIdeal.defs _ _).mono (fun _ h c => ⟨(h c).1.trans ?_, (h c).2⟩)
    (Cert.ReferenceIdeal.RefVal.run (F := Ideal) m' ρ')
  rw [Cert.ReferenceIdeal.RefVal.result_ideal, (hagree c).1, (hagree c).2.1, (hagree c).2.2.1, (hagree c).2.2.2, tM_eq, tL_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
